-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_
  bcast_S_S16384x4096 : S_.BroadcastsInDim S16384x4096 (![] : Fin 0 → Fin S16384x4096.rank)
  reducesTo_S16384x4096_S_d0_1 : S16384x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2x2048x4096 .f32) (main_arg1 : FVec F S4096x16384 .f32) (main_arg2 : FVec F S16384 .f32) (main_arg3 : FVec F S16384x4096 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_arg4 main_v13 main_v16
-- ==== Kernel.lean ====
abbrev S2x2048x4096 : Shape := ⟨3, ![2, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S4096x4096 : Shape := ⟨2, ![4096, 4096]⟩
abbrev S1x16384 : Shape := ⟨2, ![1, 16384]⟩
abbrev S1x4096 : Shape := ⟨2, ![1, 4096]⟩
abbrev S512x4096 : Shape := ⟨2, ![512, 4096]⟩
abbrev S4096x256 : Shape := ⟨2, ![4096, 256]⟩
abbrev S1x256 : Shape := ⟨2, ![1, 256]⟩
abbrev S256x4096 : Shape := ⟨2, ![256, 4096]⟩
abbrev S512x256 : Shape := ⟨2, ![512, 256]⟩

abbrev nBuf : Space → Nat
  | .hbm => 13
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S4096x4096, .f32⟩
  | .hbm, ⟨6, _⟩ => ⟨S4096x4096, .bf16⟩
  | .hbm, ⟨7, _⟩ => ⟨S4096x16384, .bf16⟩
  | .hbm, ⟨8, _⟩ => ⟨S16384x4096, .bf16⟩
  | .hbm, ⟨9, _⟩ => ⟨S1x16384, .f32⟩
  | .hbm, ⟨10, _⟩ => ⟨S1x4096, .f32⟩
  | .hbm, ⟨11, _⟩ => ⟨S4096x4096, .f32⟩
  | .hbm, ⟨12, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S4096x256, .bf16⟩
  | .local _ .vmem, ⟨3, _⟩ => ⟨S4096x256, .bf16⟩
  | .local _ .vmem, ⟨4, _⟩ => ⟨S1x256, .f32⟩
  | .local _ .vmem, ⟨5, _⟩ => ⟨S1x256, .f32⟩
  | .local _ .vmem, ⟨6, _⟩ => ⟨S256x4096, .bf16⟩
  | .local _ .vmem, ⟨7, _⟩ => ⟨S256x4096, .bf16⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![8, 64], ![false, false]⟩

def k0_cond2 (i : grid0.Coords) : BitVec 1 :=
  let arg1 : BitVec 32 := BitVec.ofNat 32 (i 1).val
  let c63_i32 : BitVec 32 := 63#32
  let v34 : BitVec 1 := Scalar.cmpi .eq arg1 c63_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

class Facts₀ : Prop where
  shapeCasts_S2x2048x4096_S4096x4096 : S2x2048x4096.ShapeCasts S4096x4096
  bitsLt_bf16_f32 : FTy.bits .bf16 < FTy.bits .f32
  shapeCasts_S16384_S1x16384 : S16384.ShapeCasts S1x16384
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S4096x4096_S2x2048x4096 : S4096x4096.ShapeCasts S2x2048x4096
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x16384.size a
  hwx0_1 : ∀ i : grid0.Coords, EltTy.bits .bf16 = 32 ∨ (Rect.block (s := S4096x16384) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x16384.size a
  hwx0_2 : ∀ i : grid0.Coords, EltTy.bits .f32 = 32 ∨ (Rect.block (s := S1x16384) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .bf16 = 32 ∨ (Rect.block (s := S16384x4096) S256x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S4096x4096.size a
  hwx0_5 : ∀ i : grid0.Coords, EltTy.bits .f32 = 32 ∨ (Rect.block (s := S4096x4096) S512x4096.size (cc0_transform_5 i) (hinb0_5 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x4096.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S4096x4096 : Shape := ⟨2, ![4096, 4096]⟩
abbrev S1x16384 : Shape := ⟨2, ![1, 16384]⟩
abbrev S_ : Shape := ⟨0, ![]⟩
abbrev S1x1x4096 : Shape := ⟨3, ![1, 1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S4096x4096, .f32⟩
  | .hbm, ⟨6, _⟩ => ⟨S4096x16384, .f32⟩
  | .hbm, ⟨7, _⟩ => ⟨S1x16384, .f32⟩
  | .hbm, ⟨8, _⟩ => ⟨S4096x16384, .f32⟩
  | .hbm, ⟨9, _⟩ => ⟨S4096x16384, .f32⟩
  | .hbm, ⟨10, _⟩ => ⟨S4096x16384, .f32⟩
  | .hbm, ⟨11, _⟩ => ⟨S4096x16384, .f32⟩
  | .hbm, ⟨12, _⟩ => ⟨S_, .f32⟩
  | .hbm, ⟨13, _⟩ => ⟨S4096x16384, .f32⟩
  | .hbm, ⟨14, _⟩ => ⟨S4096x16384, .f32⟩
  | .hbm, ⟨15, _⟩ => ⟨S4096x16384, .f32⟩
  | .hbm, ⟨16, _⟩ => ⟨S_, .f32⟩
  | .hbm, ⟨17, _⟩ => ⟨S4096x16384, .f32⟩
  | .hbm, ⟨18, _⟩ => ⟨S4096x16384, .f32⟩
  | .hbm, ⟨19, _⟩ => ⟨S4096x16384, .f32⟩
  | .hbm, ⟨20, _⟩ => ⟨S_, .f32⟩
  | .hbm, ⟨21, _⟩ => ⟨S4096x16384, .f32⟩
  | .hbm, ⟨22, _⟩ => ⟨S4096x16384, .f32⟩
  | .hbm, ⟨23, _⟩ => ⟨S_, .f32⟩
  | .hbm, ⟨24, _⟩ => ⟨S4096x16384, .f32⟩
  | .hbm, ⟨25, _⟩ => ⟨S4096x16384, .f32⟩
  | .hbm, ⟨26, _⟩ => ⟨S4096x16384, .f32⟩
  | .hbm, ⟨27, _⟩ => ⟨S4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .i1⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .i1⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S2x2048x4096, .f32⟩
  | .hbm, ⟨48, _⟩ => ⟨S1x1x4096, .f32⟩
  | .hbm, ⟨49, _⟩ => ⟨S2x2048x4096, .f32⟩
  | .hbm, ⟨50, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_cst_4 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_call0_call0_v0 : Ref sig .tc := ⟨.hbm, 33, rfl⟩
abbrev main_call0_v2 : Ref sig .tc := ⟨.hbm, 34, rfl⟩
abbrev main_call0_cst : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_call1_v0 : Ref sig .tc := ⟨.hbm, 39, rfl⟩
abbrev main_call0_v6 : Ref sig .tc := ⟨.hbm, 40, rfl⟩
abbrev main_call0_cst_0 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_call2_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩

abbrev nD : Nat := 1
abbrev τ : Topo := Topo.v7x

variable {F : FTy → Type} [FloatOps F]

class Facts₀ : Prop where
  shapeCasts_S2x2048x4096_S4096x4096 : S2x2048x4096.ShapeCasts S4096x4096
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  bcast_S_S4096x4096 : S_.BroadcastsInDim S4096x4096 (![] : Fin 0 → Fin S4096x4096.rank)
  shapeCasts_S4096x4096_S2x2048x4096 : S4096x4096.ShapeCasts S2x2048x4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S4096x4096_S4096x16384_S4096x16384_1_0_0_1_n_n_wf : DotDims.WF S4096x4096 S4096x16384 S4096x16384 [1] [0] [0] [1] [] []
  dot_S4096x16384_S16384x4096_S4096x4096_1_0_0_1_n_n_wf : DotDims.WF S4096x16384 S16384x4096 S4096x4096 [1] [0] [0] [1] [] []

variable [Facts₀]

def dot_S4096x4096_S4096x16384_S4096x16384_1_0_0_1_n_n : DotDims S4096x4096 S4096x16384 S4096x16384 where
  lhsContracting := [1]
  rhsContracting := [0]
  lhsNonContracting := [0]
  rhsNonContracting := [1]
  lhsBatch := []
  rhsBatch := []
  wf := dot_S4096x4096_S4096x16384_S4096x16384_1_0_0_1_n_n_wf
def dot_S4096x16384_S16384x4096_S4096x4096_1_0_0_1_n_n : DotDims S4096x16384 S16384x4096 S4096x4096 where
  lhsContracting := [1]
  rhsContracting := [0]
  lhsNonContracting := [0]
  rhsNonContracting := [1]
  lhsBatch := []
  rhsBatch := []
  wf := dot_S4096x16384_S16384x4096_S4096x4096_1_0_0_1_n_n_wf

class Facts : Prop extends Facts₀ where

variable [Facts]
-- ==== Proof.KernPieces.lean ====
/-
  What each control case of the kernel body leaves behind, as a value.

  The body keeps a running sum in a scratch block that survives from one grid point to the next.  At the first
  hidden tile of a row block it stores zeros and then the zeros plus this tile's contribution; at a middle tile the
  old contents plus this tile's contribution; at the last tile the same, after which it reads the sum back, passes
  it through the guard, adds the output bias and stores the output block.  Each store covers its whole buffer and
  each load reads a whole buffer, so what a case leaves is the stored value as a function of the loaded blocks.
-/
import proofs.«127796_j23699629539600_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KernValue

open Cert.KernelIdeal Cert.KernelIdeal.Gen

variable {F : FTy → Type} [FloatOps F]

theorem hz : (![0, 0] : Fin 2 → Nat) = fun _ => 0 := funext fun a => by fin_cases a <;> rfl

/-- First tile: the scratch ends at the zero block plus this tile's contribution. -/
theorem scratch_first (c : Dev nD) (i : grid0.Coords) (a2 : Memref sig .tc .vmem S512x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x4096 .bf16) (h5 : a5.IsWhole) (a6 : Memref sig .tc .vmem S1x4096 .f32) (h6 : a6.IsWhole) (a7 : Memref sig .tc .vmem S512x4096 .f32) (h7 : a7.IsWhole) (a8 : Memref sig .tc .vmem S512x4096 .f32) (h8 : a8.IsWhole) (hc0 : cond0_0 i) (hc1 : ¬cond0_1 i) (x0 : Vec F S512x4096 .bf16) (x1 : Vec F S4096x256 .bf16) (x2 : Vec F S1x256 .f32) (x3 : Vec F S256x4096 .bf16) (x4 : Vec F S1x4096 .f32) :
    sout0_A_0 c i a2 h2 a3 h3 a4 h4 a5 h5 a6 h6 a7 h7 a8 h8 hc0 hc1 x0 x1 x2 x3 x4 = k0_pay3 x0 x1 x2 x3 (k0_pay2 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S512x4096) hz, View.readCov_unit_zero (S := S512x4096) _ hz]
  simp only [View.readAt_eq_ld, h2.read_unread, h3.read_unread, h4.read_unread, h5.read_unread, View.ld_unit_zero (S := S512x4096) hz, View.ld_unit_zero (S := S4096x256) hz, View.ld_unit_zero (S := S1x256) hz, View.ld_unit_zero (S := S256x4096) hz, View.ld_unit_zero (S := S1x4096) hz]

/-- Middle tile: the scratch ends at its old contents plus this tile's contribution. -/
theorem scratch_middle (c : Dev nD) (i : grid0.Coords) (a2 : Memref sig .tc .vmem S512x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x4096 .bf16) (h5 : a5.IsWhole) (a6 : Memref sig .tc .vmem S1x4096 .f32) (h6 : a6.IsWhole) (a7 : Memref sig .tc .vmem S512x4096 .f32) (h7 : a7.IsWhole) (a8 : Memref sig .tc .vmem S512x4096 .f32) (h8 : a8.IsWhole) (hc0 : ¬cond0_0 i) (hc1 : ¬cond0_1 i) (x0 : Vec F S512x4096 .bf16) (x1 : Vec F S4096x256 .bf16) (x2 : Vec F S1x256 .f32) (x3 : Vec F S256x4096 .bf16) (x4 : Vec F S1x4096 .f32) (xs0 : Vec F S512x4096 .f32) :
    sout0_B_0 c i a2 h2 a3 h3 a4 h4 a5 h5 a6 h6 a7 h7 a8 h8 hc0 hc1 x0 x1 x2 x3 x4 xs0 = k0_pay3 x0 x1 x2 x3 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero hz]
  simp only [View.readAt_eq_ld, h2.read_unread, h3.read_unread, h4.read_unread, h5.read_unread, h8.read_unread, View.ld_unit_zero (S := S512x4096) hz, View.ld_unit_zero (S := S4096x256) hz, View.ld_unit_zero (S := S1x256) hz, View.ld_unit_zero (S := S256x4096) hz, View.ld_unit_zero (S := S1x4096) hz]

/-- Last tile: the scratch ends at its old contents plus this tile's contribution, -/
theorem scratch_last (c : Dev nD) (i : grid0.Coords) (a2 : Memref sig .tc .vmem S512x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x4096 .bf16) (h5 : a5.IsWhole) (a6 : Memref sig .tc .vmem S1x4096 .f32) (h6 : a6.IsWhole) (a7 : Memref sig .tc .vmem S512x4096 .f32) (h7 : a7.IsWhole) (a8 : Memref sig .tc .vmem S512x4096 .f32) (h8 : a8.IsWhole) (hc0 : ¬cond0_0 i) (hc1 : cond0_1 i) (x0 : Vec F S512x4096 .bf16) (x1 : Vec F S4096x256 .bf16) (x2 : Vec F S1x256 .f32) (x3 : Vec F S256x4096 .bf16) (x4 : Vec F S1x4096 .f32) (xs0 : Vec F S512x4096 .f32) :
    sout0_C_0 c i a2 h2 a3 h3 a4 h4 a5 h5 a6 h6 a7 h7 a8 h8 hc0 hc1 x0 x1 x2 x3 x4 xs0 = k0_pay3 x0 x1 x2 x3 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz]
  simp only [View.readAt_eq_ld, h2.read_unread, h3.read_unread, h4.read_unread, h5.read_unread, h8.read_unread, View.ld_unit_zero (S := S512x4096) hz, View.ld_unit_zero (S := S4096x256) hz, View.ld_unit_zero (S := S1x256) hz, View.ld_unit_zero (S := S256x4096) hz, View.ld_unit_zero (S := S1x4096) hz]

/-- and the output block at the guarded sum plus the output bias. -/
theorem output_last (c : Dev nD) (i : grid0.Coords) (a2 : Memref sig .tc .vmem S512x4096 .bf16) (h2 : a2.IsWhole) (a3 : Memref sig .tc .vmem S4096x256 .bf16) (h3 : a3.IsWhole) (a4 : Memref sig .tc .vmem S1x256 .f32) (h4 : a4.IsWhole) (a5 : Memref sig .tc .vmem S256x4096 .bf16) (h5 : a5.IsWhole) (a6 : Memref sig .tc .vmem S1x4096 .f32) (h6 : a6.IsWhole) (a7 : Memref sig .tc .vmem S512x4096 .f32) (h7 : a7.IsWhole) (a8 : Memref sig .tc .vmem S512x4096 .f32) (h8 : a8.IsWhole) (hc0 : ¬cond0_0 i) (hc1 : cond0_1 i) (x0 : Vec F S512x4096 .bf16) (x1 : Vec F S4096x256 .bf16) (x2 : Vec F S1x256 .f32) (x3 : Vec F S256x4096 .bf16) (x4 : Vec F S1x4096 .f32) (xs0 : Vec F S512x4096 .f32) :
    out0_C_5 c i a2 h2 a3 h3 a4 h4 a5 h5 a6 h6 a7 h7 a8 h8 hc0 hc1 x0 x1 x2 x3 x4 xs0 = k0_pay1 (k0_pay3 x0 x1 x2 x3 xs0) x4 := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz, View.readCov_unit_zero (S := S512x4096) _ hz]
  simp only [View.readAt_eq_ld, h2.read_unread, h3.read_unread, h4.read_unread, h5.read_unread, h6.read_unread, h8.read_unread, View.ld_unit_zero (S := S512x4096) hz, View.ld_unit_zero (S := S4096x256) hz, View.ld_unit_zero (S := S1x256) hz, View.ld_unit_zero (S := S256x4096) hz, View.ld_unit_zero (S := S1x4096) hz]

end Cert.KernelIdeal.KernValue

end
-- ==== Proof.Spec.lean ====
/-
  The feed-forward block as one function of its five argument arrays, entry by entry.

  With `x` flattened to 4096 rows of 4096 features, hidden unit `j` of row `t` is
  `gelu (∑ i, x (t, i) · W1 (i, j) + b1 j)`, the tanh form of GELU
  `s ↦ s · (1/2 · (1 + tanh (c₁ · (s + c₀ · s³))))` with the two binary constants the programs spell;
  output feature `d` of row `t` is the sum over all 16384 hidden units of `hidden (t, j) · W2 (j, d)`, passed
  through the guard that replaces an infinite value by zero, plus `b2 d`; and entry `(b, s, d)` of the
  result is row `b · 2048 + s`, feature `d`.  Every operation is the exact one on the extended reals.
-/
import Idealize.ShloMosaic.PureOps.Ideal
import Idealize.ShloMosaic.Lib.ValueIdx
import Idealize.ShloMosaic.Lib.Pipeline.Value

noncomputable section

namespace Cert.Ffn

open Idealize.ShloMosaic Idealize.ShloMosaic.ValueIdx

/-- The tanh form of GELU on the extended reals, with the cube written `s · (s · s)`. -/
def gelu (s : EReal) : EReal :=
  s * (Ideal.ofBits .f32 0x3F000000#32 * (Ideal.ofBits .f32 0x3F800000#32
    + Ideal.tanh (Ideal.ofBits .f32 0x3F4C422A#32 * (s + Ideal.ofBits .f32 0x3D372713#32 * (s * (s * s))))))

/-- `y` unless the comparison `p` of `y` against `w` holds, and then zero. -/
def zeroIf (p : CmpFPredicate) (w y : EReal) : EReal :=
  Scalar.select (Ideal.cmp p y w) (Ideal.ofBits .f32 0x00000000#32) y

/-- The guard: zero where `y` differs from itself (never, on the extended reals), then zero at `+∞`, then zero at `-∞`. -/
def guard (y : EReal) : EReal :=
  zeroIf .oeq (Ideal.ofBits .f32 0xFF800000#32) (zeroIf .oeq (Ideal.ofBits .f32 0x7F800000#32) (zeroIf .one y y))

/-- Hidden unit `j` of row `t`. -/
def hidden (xf : FVec Ideal ⟨2, ![4096, 4096]⟩ .f32) (W1 : FVec Ideal ⟨2, ![4096, 16384]⟩ .f32)
    (b1 : FVec Ideal ⟨1, ![16384]⟩ .f32) (t : Fin 4096) (j : Fin 16384) : EReal :=
  gelu ((∑ i : Fin 4096, xf (ix2 t i) * W1 (ix2 i j)) + b1 (ix1 j))

/-- Output feature `d` of row `t` before the guard: the sum over every hidden unit. -/
def proj (xf : FVec Ideal ⟨2, ![4096, 4096]⟩ .f32) (W1 : FVec Ideal ⟨2, ![4096, 16384]⟩ .f32)
    (b1 : FVec Ideal ⟨1, ![16384]⟩ .f32) (W2 : FVec Ideal ⟨2, ![16384, 4096]⟩ .f32) (t : Fin 4096) (d : Fin 4096) : EReal :=
  ∑ j : Fin 16384, hidden xf W1 b1 t j * W2 (ix2 j d)

/-- Output feature `d` of row `t`: the guarded sum plus the bias. -/
def flat (xf : FVec Ideal ⟨2, ![4096, 4096]⟩ .f32) (W1 : FVec Ideal ⟨2, ![4096, 16384]⟩ .f32)
    (b1 : FVec Ideal ⟨1, ![16384]⟩ .f32) (W2 : FVec Ideal ⟨2, ![16384, 4096]⟩ .f32) (b2 : FVec Ideal ⟨1, ![4096]⟩ .f32)
    (t : Fin 4096) (d : Fin 4096) : EReal :=
  guard (proj xf W1 b1 W2 t d) + b2 (ix1 d)

/-- The flattened row `b · 2048 + s` of an index `(b, s, d)`. -/
def rowOf (i : (⟨3, ![2, 2048, 4096]⟩ : Shape).Idx) : Fin 4096 :=
  ⟨(i 0).val * 2048 + (i 1).val, by
    have h0 : (i 0).val < 2 := (i 0).isLt
    have h1 : (i 1).val < 2048 := (i 1).isLt
    omega⟩

/-- The feature `d` of an index `(b, s, d)`. -/
def colOf (i : (⟨3, ![2, 2048, 4096]⟩ : Shape).Idx) : Fin 4096 := ⟨(i 2).val, (i 2).isLt⟩

/-- The whole block: entry `(b, s, d)` of the result from the five argument arrays (`x` read through its flattening). -/
def G (x : FVec Ideal ⟨3, ![2, 2048, 4096]⟩ .f32) (W1 : FVec Ideal ⟨2, ![4096, 16384]⟩ .f32)
    (b1 : FVec Ideal ⟨1, ![16384]⟩ .f32) (W2 : FVec Ideal ⟨2, ![16384, 4096]⟩ .f32) (b2 : FVec Ideal ⟨1, ![4096]⟩ .f32)
    (hx : (⟨3, ![2, 2048, 4096]⟩ : Shape).ShapeCasts ⟨2, ![4096, 4096]⟩) : FVec Ideal ⟨3, ![2, 2048, 4096]⟩ .f32 :=
  fun i => flat (shapeCast ⟨2, ![4096, 4096]⟩ x hx) W1 b1 W2 b2 (rowOf i) (colOf i)

theorem rowOf_ix3 (b : Fin 2) (s : Fin 2048) (d : Fin 4096) : (rowOf (ix3 b s d)).val = b.val * 2048 + s.val := rfl

theorem colOf_ix3 (b : Fin 2) (s : Fin 2048) (d : Fin 4096) : colOf (ix3 b s d) = d := rfl

end Cert.Ffn

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.KernPayload.lean ====
/-
  The kernel body's three stored values read at an entry, on the extended reals.

  With the loaded blocks `x0` (512 rows of `x`), `x1` (256 columns of `W1`), `x2` (256 entries of `b1`, as a row),
  `x3` (256 rows of `W2`) and `x4` (`b2`, as a row): the zero block is zero everywhere; the accumulation step at
  `(p, q)` is the old sum plus, over the tile's 256 hidden units `j`, `gelu (∑ e, x0 (p, e) · x1 (e, j) + x2 j) · x3 (j, q)`
  (both products are plain row-times-column sums: rounding the operands to a shorter format changes nothing here);
  and the output step at `(p, q)` is the guarded sum plus `x4 q`.
-/
import proofs.«127796_j23699629539600_1_alg».proof.Proof.Gen.KernelIdeal.Skeleton
import proofs.«127796_j23699629539600_1_alg».proof.Proof.Spec
import proofs.«127796_j23699629539600_1_alg».proof.Proof.LibDense
import Idealize.ShloMosaic.Lib.ValueLayout
import Idealize.ShloMosaic.Lib.Pipeline.Value

noncomputable section

open Idealize.ShloMosaic Idealize.ShloMosaic.ValueIdx

namespace Cert.KernelIdeal.KernValue

open Cert.KernelIdeal Cert.KernelIdeal.Gen

/-- One tile's contribution to output entry `(p, q)` of a row block: the sum over the tile's 256 hidden units. -/
def tileTerm (x0 : FVec Ideal S512x4096 .bf16) (x1 : FVec Ideal S4096x256 .bf16) (x2 : FVec Ideal S1x256 .f32)
    (x3 : FVec Ideal S256x4096 .bf16) (p : Fin 512) (q : Fin 4096) : EReal :=
  ∑ j : Fin 256, Cert.Ffn.gelu ((∑ e : Fin 4096, x0 (ix2 p e) * x1 (ix2 e j)) + x2 (ix2 (0 : Fin 1) j)) * x3 (ix2 j q)

/-! The two products' dimension numbers: contract the left operand's columns with the right operand's rows. -/

theorem d1_rank : (dot_S512x4096_S4096x256_S512x256_1_0_0_1_n_n).contr.rank = 1 := rfl
theorem d1_size : (dot_S512x4096_S4096x256_S512x256_1_0_0_1_n_n).contr.size ⟨0, by rw [d1_rank]; exact Nat.one_pos⟩ = 4096 := rfl

theorem d2_rank : (dot_S512x256_S256x4096_S512x4096_1_0_0_1_n_n).contr.rank = 1 := rfl
theorem d2_size : (dot_S512x256_S256x4096_S512x4096_1_0_0_1_n_n).contr.size ⟨0, by rw [d2_rank]; exact Nat.one_pos⟩ = 256 := rfl

/-- The first product at `(p, j)`: row `p` of the left block times column `j` of the right block. -/
theorem first_product (a : FVec Ideal S512x4096 .bf16) (w : FVec Ideal S4096x256 .bf16) (p : Fin 512) (j : Fin 256) :
    FloatOps.matmul dot_S512x4096_S4096x256_S512x256_1_0_0_1_n_n none a w (constant S512x256 .f32 0x00000000#32) (ix2 p j)
      = ∑ e : Fin 4096, a (ix2 p e) * w (ix2 e j) :=
  matmul_zero_plain_apply (n := 512) (K := 4096) (h := 256) dot_S512x4096_S4096x256_S512x256_1_0_0_1_n_n none d1_rank d1_size
    (fun _ _ => rfl)
    (fun i k => (dot_S512x4096_S4096x256_S512x256_1_0_0_1_n_n).lhsIdx_val_of_single (cl := 1) rfl i k)
    (fun i k => (dot_S512x4096_S4096x256_S512x256_1_0_0_1_n_n).rhsIdx_val_of_single (cr := 0) rfl i k)
    (fun _ _ => rfl) a w p j

/-- The second product at `(p, q)`: row `p` of the left block times column `q` of the right block. -/
theorem second_product (a : FVec Ideal S512x256 .bf16) (w : FVec Ideal S256x4096 .bf16) (p : Fin 512) (q : Fin 4096) :
    FloatOps.matmul dot_S512x256_S256x4096_S512x4096_1_0_0_1_n_n none a w (constant S512x4096 .f32 0x00000000#32) (ix2 p q)
      = ∑ j : Fin 256, a (ix2 p j) * w (ix2 j q) :=
  matmul_zero_plain_apply (n := 512) (K := 256) (h := 4096) dot_S512x256_S256x4096_S512x4096_1_0_0_1_n_n none d2_rank d2_size
    (fun _ _ => rfl)
    (fun i k => (dot_S512x256_S256x4096_S512x4096_1_0_0_1_n_n).lhsIdx_val_of_single (cl := 1) rfl i k)
    (fun i k => (dot_S512x256_S256x4096_S512x4096_1_0_0_1_n_n).rhsIdx_val_of_single (cr := 0) rfl i k)
    (fun _ _ => rfl) a w p q

/-- The zero block is zero at every entry. -/
theorem zero_apply (y : S512x4096.Idx) : k0_pay2 (F := Ideal) y = Ideal.ofBits .f32 0x00000000#32 := by
  unfold k0_pay2
  exact congrFun (shapeCast_self _ _) y

/-- The accumulation step at `(p, q)`: the old sum plus this tile's contribution. -/
theorem accumulate_apply (x0 : FVec Ideal S512x4096 .bf16) (x1 : FVec Ideal S4096x256 .bf16) (x2 : FVec Ideal S1x256 .f32)
    (x3 : FVec Ideal S256x4096 .bf16) (acc : FVec Ideal S512x4096 .f32) (p : Fin 512) (q : Fin 4096) :
    k0_pay3 (F := Ideal) x0 x1 x2 x3 acc (ix2 p q) = acc (ix2 p q) + tileTerm x0 x1 x2 x3 p q := by
  unfold k0_pay3
  refine (congrFun (shapeCast_self _ _) (ix2 p q)).trans ?_
  refine congrArg (acc (ix2 p q) + ·) ?_
  refine (second_product _ _ p q).trans ?_
  unfold tileTerm
  refine Finset.sum_congr rfl fun j _ => ?_
  refine congrArg₂ (· * ·) ?_ (congrFun (shapeCast_self x3 _) (ix2 j q))
  have hs : addf (matmul dot_S512x4096_S4096x256_S512x256_1_0_0_1_n_n none (shapeCast S512x4096 x0 Facts₀.shapeCasts_S512x4096_S512x4096)
        (shapeCast S4096x256 x1 Facts₀.shapeCasts_S4096x256_S4096x256) (constant S512x256 .f32 0x00000000#32))
      (broadcastTo S512x256 (shapeCast S1x256 x2 Facts₀.shapeCasts_S1x256_S1x256) Facts₀.broadcasts_S1x256_S512x256) (ix2 p j)
      = (∑ e : Fin 4096, x0 (ix2 p e) * x1 (ix2 e j)) + x2 (ix2 (0 : Fin 1) j) := by
    refine congrArg₂ (· + ·) ?_ ?_
    · rw [shapeCast_self, shapeCast_self]
      exact first_product x0 x1 p j
    · rw [shapeCast_self]
      exact broadcastTo_1b_ab_apply x2 _ p j
  exact congrArg Cert.Ffn.gelu hs

/-- The output step at `(p, q)`: the guarded sum plus the bias row's entry `q`. -/
theorem output_apply (acc : FVec Ideal S512x4096 .f32) (x4 : FVec Ideal S1x4096 .f32) (p : Fin 512) (q : Fin 4096) :
    k0_pay1 (F := Ideal) acc x4 (ix2 p q) = Cert.Ffn.guard (acc (ix2 p q)) + x4 (ix2 (0 : Fin 1) q) := by
  unfold k0_pay1
  refine congrArg₂ (· + ·) rfl ?_
  rw [shapeCast_self]
  exact broadcastTo_1b_ab_apply x4 _ p q

end Cert.KernelIdeal.KernValue

end
-- ==== Proof.KernBlocks.lean ====
/-
  What the kernel's windows read.

  Before the kernel runs, the host program flattens `x` to 4096 rows, rounds `x`, `W1` and `W2` to a shorter format
  and writes `b1` and `b2` as one-row matrices.  At grid point `t`, with row block `t / 64` and hidden tile `t % 64`,
  the six windows are at these blocks: rows `512 · (t / 64) + p` of the flattened `x`; columns `256 · (t % 64) + j` of
  `W1`, of the `b1` row, and rows of the same numbers of `W2`; all of the `b2` row; and rows `512 · (t / 64) + p`
  of the output.  A block's element sits at block index times block size plus its coordinate inside the block.
-/
import proofs.«127796_j23699629539600_1_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.KernValue

open Cert.KernelIdeal Cert.KernelIdeal.Gen

variable {F : FTy → Type} [FloatOps F]
variable (m : (ℓ : Loc nD τ sig) → Buf (Elt F) ℓ)

/-- Where each window's block sits at point `t`: the row block is `t / 64`, the hidden tile `t % 64`. -/
theorem block_index : ∀ t : Fin cfg0.N,
    win0_0.index t (0 : Fin 2) = t.val / 64 ∧ win0_0.index t (1 : Fin 2) = 0
    ∧ win0_1.index t (0 : Fin 2) = 0 ∧ win0_1.index t (1 : Fin 2) = t.val % 64
    ∧ win0_2.index t (0 : Fin 2) = 0 ∧ win0_2.index t (1 : Fin 2) = t.val % 64
    ∧ win0_3.index t (0 : Fin 2) = t.val % 64 ∧ win0_3.index t (1 : Fin 2) = 0
    ∧ win0_4.index t (0 : Fin 2) = 0 ∧ win0_4.index t (1 : Fin 2) = 0
    ∧ win0_5.index t (0 : Fin 2) = t.val / 64 ∧ win0_5.index t (1 : Fin 2) = 0 :=
  (by decide +kernel : ∀ t : Fin grid0.N, _)

/-! ## The arrays the host program wrote before the kernel -/

theorem xrows_eq (c : Dev nD) : (V m c main_v1 : S4096x4096.Idx → Elt F .bf16)
    = truncf .bf16 (shapeCast S4096x4096 (m ((c : Thread nD τ).loc main_arg0)) Facts₀.shapeCasts_S2x2048x4096_S4096x4096) Facts₀.bitsLt_bf16_f32 := by
  show StableHlo.after hostOps0 (fun b => m (c, b)) (Proc.devRef .tc main_v1) = _
  after_results
  all_goals rfl

theorem w1_eq (c : Dev nD) : (V m c main_v2 : S4096x16384.Idx → Elt F .bf16)
    = truncf .bf16 (m ((c : Thread nD τ).loc main_arg1)) Facts₀.bitsLt_bf16_f32 := by
  show StableHlo.after hostOps0 (fun b => m (c, b)) (Proc.devRef .tc main_v2) = _
  after_results
  all_goals rfl

theorem w2_eq (c : Dev nD) : (V m c main_v3 : S16384x4096.Idx → Elt F .bf16)
    = truncf .bf16 (m ((c : Thread nD τ).loc main_arg3)) Facts₀.bitsLt_bf16_f32 := by
  show StableHlo.after hostOps0 (fun b => m (c, b)) (Proc.devRef .tc main_v3) = _
  after_results
  all_goals rfl

theorem b1row_eq (c : Dev nD) : (V m c main_v4 : S1x16384.Idx → Elt F .f32)
    = shapeCast S1x16384 (m ((c : Thread nD τ).loc main_arg2)) Facts₀.shapeCasts_S16384_S1x16384 := by
  show StableHlo.after hostOps0 (fun b => m (c, b)) (Proc.devRef .tc main_v4) = _
  after_results
  all_goals rfl

theorem b2row_eq (c : Dev nD) : (V m c main_v5 : S1x4096.Idx → Elt F .f32)
    = shapeCast S1x4096 (m ((c : Thread nD τ).loc main_arg4)) Facts₀.shapeCasts_S4096_S1x4096 := by
  show StableHlo.after hostOps0 (fun b => m (c, b)) (Proc.devRef .tc main_v5) = _
  after_results
  all_goals rfl

/-! ## Each window's block at a point, read at an entry -/

theorem xrows_block (c : Dev nD) (t : Fin cfg0.N) (p : Fin 512) (e : Fin 4096) (hrow : 512 * (t.val / 64) + p.val < 4096) :
    (iblk m c 0 t : Vec F S512x4096 .bf16) (ix2 p e) = V m c main_v1 (ix2 ⟨512 * (t.val / 64) + p.val, hrow⟩ e) := by
  obtain ⟨e0, e1, -⟩ := block_index t
  unfold iblk
  rw [View.read_apply]
  show V m c main_v1 (((cfg0.win 0).blk t).view.emb (ix2 p e)) = V m c main_v1 _
  refine congrArg (V m c main_v1) ?_
  funext a; apply Fin.ext
  match a with
  | ⟨0, _⟩ => show win0_0.index t (0 : Fin 2) * 512 + 1 * p.val = 512 * (t.val / 64) + p.val; omega
  | ⟨1, _⟩ => show win0_0.index t (1 : Fin 2) * 4096 + 1 * e.val = e.val; omega

theorem w1_block (c : Dev nD) (t : Fin cfg0.N) (e : Fin 4096) (j : Fin 256) (hcol : 256 * (t.val % 64) + j.val < 16384) :
    (iblk m c 1 t : Vec F S4096x256 .bf16) (ix2 e j) = V m c main_v2 (ix2 e ⟨256 * (t.val % 64) + j.val, hcol⟩) := by
  obtain ⟨-, -, e0, e1, -⟩ := block_index t
  unfold iblk
  rw [View.read_apply]
  show V m c main_v2 (((cfg0.win 1).blk t).view.emb (ix2 e j)) = V m c main_v2 _
  refine congrArg (V m c main_v2) ?_
  funext a; apply Fin.ext
  match a with
  | ⟨0, _⟩ => show win0_1.index t (0 : Fin 2) * 4096 + 1 * e.val = e.val; omega
  | ⟨1, _⟩ => show win0_1.index t (1 : Fin 2) * 256 + 1 * j.val = 256 * (t.val % 64) + j.val; omega

theorem b1row_block (c : Dev nD) (t : Fin cfg0.N) (u : Fin 1) (j : Fin 256) (hcol : 256 * (t.val % 64) + j.val < 16384) :
    (iblk m c 2 t : Vec F S1x256 .f32) (ix2 u j) = V m c main_v4 (ix2 (0 : Fin 1) ⟨256 * (t.val % 64) + j.val, hcol⟩) := by
  obtain ⟨-, -, -, -, e0, e1, -⟩ := block_index t
  have hu : u.val = 0 := by omega
  unfold iblk
  rw [View.read_apply]
  show V m c main_v4 (((cfg0.win 2).blk t).view.emb (ix2 u j)) = V m c main_v4 _
  refine congrArg (V m c main_v4) ?_
  funext a; apply Fin.ext
  match a with
  | ⟨0, _⟩ => show win0_2.index t (0 : Fin 2) * 1 + 1 * u.val = 0; omega
  | ⟨1, _⟩ => show win0_2.index t (1 : Fin 2) * 256 + 1 * j.val = 256 * (t.val % 64) + j.val; omega

theorem w2_block (c : Dev nD) (t : Fin cfg0.N) (j : Fin 256) (q : Fin 4096) (hrow : 256 * (t.val % 64) + j.val < 16384) :
    (iblk m c 3 t : Vec F S256x4096 .bf16) (ix2 j q) = V m c main_v3 (ix2 ⟨256 * (t.val % 64) + j.val, hrow⟩ q) := by
  obtain ⟨-, -, -, -, -, -, e0, e1, -⟩ := block_index t
  unfold iblk
  rw [View.read_apply]
  show V m c main_v3 (((cfg0.win 3).blk t).view.emb (ix2 j q)) = V m c main_v3 _
  refine congrArg (V m c main_v3) ?_
  funext a; apply Fin.ext
  match a with
  | ⟨0, _⟩ => show win0_3.index t (0 : Fin 2) * 256 + 1 * j.val = 256 * (t.val % 64) + j.val; omega
  | ⟨1, _⟩ => show win0_3.index t (1 : Fin 2) * 4096 + 1 * q.val = q.val; omega

theorem b2row_block (c : Dev nD) (t : Fin cfg0.N) (u : Fin 1) (q : Fin 4096) :
    (iblk m c 4 t : Vec F S1x4096 .f32) (ix2 u q) = V m c main_v5 (ix2 (0 : Fin 1) q) := by
  obtain ⟨-, -, -, -, -, -, -, -, e0, e1, -⟩ := block_index t
  have hu : u.val = 0 := by omega
  unfold iblk
  rw [View.read_apply]
  show V m c main_v5 (((cfg0.win 4).blk t).view.emb (ix2 u q)) = V m c main_v5 _
  refine congrArg (V m c main_v5) ?_
  funext a; apply Fin.ext
  match a with
  | ⟨0, _⟩ => show win0_4.index t (0 : Fin 2) * 1 + 1 * u.val = 0; omega
  | ⟨1, _⟩ => show win0_4.index t (1 : Fin 2) * 4096 + 1 * q.val = q.val; omega

end Cert.KernelIdeal.KernValue

end
-- ==== Proof.TileSum.lean ====
/-
  Regrouping a sum over consecutive tiles.

  A sum over `a · b` consecutive positions is the sum, over `a` tiles, of each tile's `b` positions; so a running sum
  that takes in one tile of 256 hidden units at a time ends, after 64 tiles, at the sum over all 16384 of them.
  Only the commutative-monoid laws of addition are used, so this holds on the extended reals with no finiteness.
-/
import Mathlib.Algebra.BigOperators.Fin
import Mathlib.Algebra.BigOperators.Intervals

namespace Cert.Ffn

/-- The sum over `a` tiles of `b` consecutive positions each is the sum over the first `a · b` positions. -/
theorem sum_tiles {M : Type*} [AddCommMonoid M] (f : ℕ → M) (b : ℕ) :
    ∀ a : ℕ, (∑ k ∈ Finset.range a, ∑ j : Fin b, f (b * k + j.val)) = ∑ n ∈ Finset.range (a * b), f n
  | 0 => by simp
  | a + 1 => by
    rw [Finset.sum_range_succ, sum_tiles f b a, Nat.succ_mul, Finset.sum_range_add,
      Fin.sum_univ_eq_sum_range (fun j => f (b * a + j)) b, Nat.mul_comm b a]

/-- A function on `Fin n` extended by zero. -/
def extend {M : Type*} [Zero M] {n : ℕ} (g : Fin n → M) (j : ℕ) : M := if h : j < n then g ⟨j, h⟩ else 0

theorem extend_val {M : Type*} [Zero M] {n : ℕ} (g : Fin n → M) (j : Fin n) : extend g j.val = g j := by
  unfold extend
  rw [dif_pos j.isLt]

theorem extend_of_lt {M : Type*} [Zero M] {n : ℕ} (g : Fin n → M) (j : ℕ) (h : j < n) : extend g j = g ⟨j, h⟩ := by
  unfold extend
  rw [dif_pos h]

/-- All the tiles together: the sum over the whole index range. -/
theorem sum_all_tiles {M : Type*} [AddCommMonoid M] (a b : ℕ) (g : Fin (a * b) → M) :
    (∑ k ∈ Finset.range a, ∑ j : Fin b, extend g (b * k + j.val)) = ∑ n : Fin (a * b), g n := by
  rw [sum_tiles (extend g) b a, ← Fin.sum_univ_eq_sum_range (extend g) (a * b)]
  exact Finset.sum_congr rfl fun n _ => extend_val g n

end Cert.Ffn
-- ==== Proof.KernAcc.lean ====
/-
  The running sum, point by point.

  Within a row block the scratch block after hidden tile `k` holds, at `(p, q)`, the sum over tiles `0 … k` of each
  tile's 256 hidden units `hidden (row, j) · W2 (j, q)`, where `row = 512 · (row block) + p`: the first tile starts from
  zero, every later tile adds to what the tile before left.  After the last tile that is the sum over all 16384
  hidden units, the output block is its guard plus the bias, and that is the specification's row `row`, feature `q`.
  Rows and hidden units are numbered by naturals here, with the value zero outside their ranges, so that the
  statements carry no proofs.
-/
import proofs.«127796_j23699629539600_1_alg».proof.Proof.KernPieces
import proofs.«127796_j23699629539600_1_alg».proof.Proof.KernPayload
import proofs.«127796_j23699629539600_1_alg».proof.Proof.KernBlocks
import proofs.«127796_j23699629539600_1_alg».proof.Proof.TileSum
import proofs.«127796_j23699629539600_1_alg».proof.Proof.Spec
import Idealize.ShloMosaic.Lib.ValueLayout

noncomputable section

open Idealize.ShloMosaic Idealize.ShloMosaic.TcCoe Idealize.SL.Sem Idealize.ShloMosaic.ValueIdx

namespace Cert.KernelIdeal.KernValue

open Cert.KernelIdeal Cert.KernelIdeal.Gen

variable (m : (ℓ : Loc nD τ sig) → Buf (Elt Ideal) ℓ)

/-- The argument arrays on core `c`, `x` through its flattening. -/
abbrev xrows (c : Dev nD) : FVec Ideal S4096x4096 .f32 :=
  shapeCast S4096x4096 (m ((c : Thread nD τ).loc main_arg0)) Facts₀.shapeCasts_S2x2048x4096_S4096x4096
abbrev argW1 (c : Dev nD) : FVec Ideal S4096x16384 .f32 := m ((c : Thread nD τ).loc main_arg1)
abbrev argB1 (c : Dev nD) : FVec Ideal S16384 .f32 := m ((c : Thread nD τ).loc main_arg2)
abbrev argW2 (c : Dev nD) : FVec Ideal S16384x4096 .f32 := m ((c : Thread nD τ).loc main_arg3)
abbrev argB2 (c : Dev nD) : FVec Ideal S4096 .f32 := m ((c : Thread nD τ).loc main_arg4)

/-- Hidden unit `j`'s term of output entry `(row, q)`, zero when `row` or `j` is out of range. -/
def unitTermN (c : Dev nD) (row : ℕ) (q : Fin 4096) (j : ℕ) : EReal :=
  if hr : row < 4096 then
    Cert.Ffn.extend (fun j' : Fin 16384 => Cert.Ffn.hidden (xrows m c) (argW1 m c) (argB1 m c) ⟨row, hr⟩ j' * argW2 m c (ix2 j' q)) j
  else 0

theorem unitTermN_of_lt (c : Dev nD) (row : ℕ) (q : Fin 4096) (j : ℕ) (hr : row < 4096) (hj : j < 16384) :
    unitTermN m c row q j = Cert.Ffn.hidden (xrows m c) (argW1 m c) (argB1 m c) ⟨row, hr⟩ ⟨j, hj⟩ * argW2 m c (ix2 ⟨j, hj⟩ q) := by
  unfold unitTermN
  rw [dif_pos hr, Cert.Ffn.extend_of_lt _ _ hj]

/-- All 64 tiles of a row together: the sum over every hidden unit. -/
theorem all_tiles (c : Dev nD) (row : ℕ) (q : Fin 4096) (hr : row < 4096) :
    (∑ k ∈ Finset.range 64, ∑ j : Fin 256, unitTermN m c row q (256 * k + j.val))
      = Cert.Ffn.proj (xrows m c) (argW1 m c) (argB1 m c) (argW2 m c) ⟨row, hr⟩ q := by
  unfold unitTermN
  simp only [dif_pos hr]
  exact Cert.Ffn.sum_all_tiles 64 256
    (fun j' : Fin 16384 => Cert.Ffn.hidden (xrows m c) (argW1 m c) (argB1 m c) ⟨row, hr⟩ j' * argW2 m c (ix2 j' q))

/-- One tile's contribution at point `t`, in terms of the argument arrays. -/
theorem tile_at (c : Dev nD) (t : Fin cfg0.N) (p : Fin 512) (q : Fin 4096) :
    tileTerm (iblk m c 0 t) (iblk m c 1 t) (iblk m c 2 t) (iblk m c 3 t) p q
      = ∑ j : Fin 256, unitTermN m c (512 * (t.val / 64) + p.val) q (256 * (t.val % 64) + j.val) := by
  have hN : t.val < 512 := lt_of_lt_of_eq t.isLt N_0
  have hrow : 512 * (t.val / 64) + p.val < 4096 := by have := p.isLt; omega
  unfold tileTerm
  refine Finset.sum_congr rfl fun j _ => ?_
  have hcol : 256 * (t.val % 64) + j.val < 16384 := by have := j.isLt; omega
  rw [unitTermN_of_lt m c _ q _ hrow hcol]
  unfold Cert.Ffn.hidden
  refine congrArg₂ (· * ·) (congrArg Cert.Ffn.gelu (congrArg₂ (· + ·) (Finset.sum_congr rfl fun e _ => congrArg₂ (· * ·) ?_ ?_) ?_)) ?_
  · exact (xrows_block m c t p e hrow).trans (congrFun (xrows_eq m c) _)
  · exact (w1_block m c t e j hcol).trans (congrFun (w1_eq m c) _)
  · exact ((b1row_block m c t 0 j hcol).trans (congrFun (b1row_eq m c) _)).trans
      (shapeCast_a_1a_apply (m ((c : Thread nD τ).loc main_arg2)) Facts₀.shapeCasts_S16384_S1x16384 0 ⟨_, hcol⟩)
  · exact (w2_block m c t j q hcol).trans (congrFun (w2_eq m c) _)

/-- The accumulation step at point `t` on any old contents `acc`. -/
theorem step_at (c : Dev nD) (t : Fin cfg0.N) (acc : FVec Ideal S512x4096 .f32) (p : Fin 512) (q : Fin 4096) :
    k0_pay3 (F := Ideal) (iblk m c 0 t) (iblk m c 1 t) (iblk m c 2 t) (iblk m c 3 t) acc (ix2 p q)
      = acc (ix2 p q) + ∑ j : Fin 256, unitTermN m c (512 * (t.val / 64) + p.val) q (256 * (t.val % 64) + j.val) :=
  (accumulate_apply (iblk m c 0 t) (iblk m c 1 t) (iblk m c 2 t) (iblk m c 3 t) acc p q).trans (congrArg (acc (ix2 p q) + ·) (tile_at m c t p q))

/-! ## What the scratch and the output hold after a point, case by case -/

theorem scratch_caseA (c : Dev nD) (t : Fin cfg0.N) (h0 : t.val % 64 = 0) (h1 : ¬t.val % 64 = 63) :
    (outsAt0 m c t.val t.isLt).2 = k0_pay3 (iblk m c 0 t) (iblk m c 1 t) (iblk m c 2 t) (iblk m c 3 t) (k0_pay2 (F := Ideal)) := by
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

theorem scratch_caseB (c : Dev nD) (t : Fin cfg0.N) (h0 : ¬t.val % 64 = 0) (h1 : ¬t.val % 64 = 63) :
    (outsAt0 m c t.val t.isLt).2
      = k0_pay3 (iblk m c 0 t) (iblk m c 1 t) (iblk m c 2 t) (iblk m c 3 t) (outsAt0 m c (t.val - 1) (Nat.lt_of_le_of_lt (Nat.sub_le _ _) t.isLt)).2 := by
  rw [outsAt0_B m c t h0 h1]
  dsimp only
  exact scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

theorem scratch_caseC (c : Dev nD) (t : Fin cfg0.N) (h0 : ¬t.val % 64 = 0) (h1 : t.val % 64 = 63) :
    (outsAt0 m c t.val t.isLt).2
      = k0_pay3 (iblk m c 0 t) (iblk m c 1 t) (iblk m c 2 t) (iblk m c 3 t) (outsAt0 m c (t.val - 1) (Nat.lt_of_le_of_lt (Nat.sub_le _ _) t.isLt)).2 := by
  rw [outsAt0_C m c t h0 h1]
  dsimp only
  exact scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

theorem output_caseC (c : Dev nD) (t : Fin cfg0.N) (h0 : ¬t.val % 64 = 0) (h1 : t.val % 64 = 63) :
    (outsAt0 m c t.val t.isLt).1 = k0_pay1 (outsAt0 m c t.val t.isLt).2 (iblk m c 4 t) := by
  rw [scratch_caseC m c t h0 h1, outsAt0_C m c t h0 h1]
  dsimp only
  exact output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-! ## The running sum -/

/-- After point `n` the scratch holds, at `(p, q)`, the tiles `0 … n % 64` of row `512 · (n / 64) + p`. -/
theorem scratch_at (c : Dev nD) : ∀ (n : ℕ) (h : n < cfg0.N) (p : Fin 512) (q : Fin 4096),
    (outsAt0 m c n h).2 (ix2 p q)
      = ∑ k ∈ Finset.range (n % 64 + 1), ∑ j : Fin 256, unitTermN m c (512 * (n / 64) + p.val) q (256 * k + j.val)
  | 0, h, p, q => by
    refine (congrFun (scratch_caseA m c ⟨0, h⟩ rfl (by show ¬(0 % 64 = 63); decide)) (ix2 p q)).trans ?_
    refine (step_at m c ⟨0, h⟩ k0_pay2 p q).trans ?_
    rw [zero_apply, Ideal.ofBits_zero_f32, zero_add]
    show _ = ∑ k ∈ Finset.range 1, ∑ j : Fin 256, unitTermN m c (512 * (0 / 64) + p.val) q (256 * k + j.val)
    rw [Finset.sum_range_one]
    rfl
  | n + 1, h, p, q => by
    have hN : n + 1 < 512 := lt_of_lt_of_eq h N_0
    by_cases h0 : (n + 1) % 64 = 0
    · have h1 : ¬(n + 1) % 64 = 63 := by omega
      refine (congrFun (scratch_caseA m c ⟨n + 1, h⟩ h0 h1) (ix2 p q)).trans ?_
      refine (step_at m c ⟨n + 1, h⟩ k0_pay2 p q).trans ?_
      rw [zero_apply, Ideal.ofBits_zero_f32, zero_add]
      show (∑ j : Fin 256, unitTermN m c (512 * ((n + 1) / 64) + p.val) q (256 * ((n + 1) % 64) + j.val)) = _
      rw [h0, Finset.sum_range_succ, Finset.sum_range_zero, zero_add]
    · have hprev : (outsAt0 m c (n + 1) h).2
          = k0_pay3 (iblk m c 0 ⟨n + 1, h⟩) (iblk m c 1 ⟨n + 1, h⟩) (iblk m c 2 ⟨n + 1, h⟩) (iblk m c 3 ⟨n + 1, h⟩) (outsAt0 m c n (Nat.lt_of_succ_lt h)).2 := by
        by_cases h1 : (n + 1) % 64 = 63
        · exact scratch_caseC m c ⟨n + 1, h⟩ h0 h1
        · exact scratch_caseB m c ⟨n + 1, h⟩ h0 h1
      refine (congrFun hprev (ix2 p q)).trans ?_
      refine (step_at m c ⟨n + 1, h⟩ _ p q).trans ?_
      rw [scratch_at c n (Nat.lt_of_succ_lt h) p q]
      have e1 : (n + 1) % 64 = n % 64 + 1 := by omega
      have e2 : (n + 1) / 64 = n / 64 := by omega
      show _ + (∑ j : Fin 256, unitTermN m c (512 * ((n + 1) / 64) + p.val) q (256 * ((n + 1) % 64) + j.val)) = _
      rw [e1, e2]
      exact (Finset.sum_range_succ _ _).symm

/-- At a last tile the output block holds the specification's rows `512 · (t / 64) + p`. -/
theorem output_at (c : Dev nD) (t : Fin cfg0.N) (hl : t.val % 64 = 63) (p : Fin 512) (q : Fin 4096)
    (hrow : 512 * (t.val / 64) + p.val < 4096) :
    (outsAt0 m c t.val t.isLt).1 (ix2 p q)
      = Cert.Ffn.flat (xrows m c) (argW1 m c) (argB1 m c) (argW2 m c) (argB2 m c) ⟨512 * (t.val / 64) + p.val, hrow⟩ q := by
  have h0 : ¬t.val % 64 = 0 := by omega
  refine (congrFun (output_caseC m c t h0 hl) (ix2 p q)).trans ?_
  refine (output_apply _ (iblk m c 4 t) p q).trans ?_
  unfold Cert.Ffn.flat
  refine congrArg₂ (· + ·) (congrArg Cert.Ffn.guard ?_) ?_
  · rw [scratch_at m c t.val t.isLt p q, hl]
    exact all_tiles m c _ q hrow
  · exact ((b2row_block m c t 0 q).trans (congrFun (b2row_eq m c) _)).trans
      (shapeCast_a_1a_apply (m ((c : Thread nD τ).loc main_arg4)) Facts₀.shapeCasts_S4096_S1x4096 0 q)

end Cert.KernelIdeal.KernValue

end
-- ==== Proof.KernFinal.lean ====
/-
  The kernel's result array, and the program's result.

  Only the last hidden tile of a row block writes the output block back, and the eight row blocks tile the 4096 rows:
  row `r` lies in row block `r / 512`, whose last tile is grid point `64 · (r / 512) + 63`.  So the kernel's output
  array ends holding, at `(r, d)`, the specification's row `r`, feature `d`; the host program then reshapes that
  array to `[2, 2048, 4096]`, where entry `(b, s, d)` is row `b · 2048 + s`, feature `d` of it — the specification.
-/
import proofs.«127796_j23699629539600_1_alg».proof.Proof.KernAcc
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernValue

open Cert.KernelIdeal Cert.KernelIdeal.Gen

variable (m : (ℓ : Loc nD τ sig) → Buf (Elt Ideal) ℓ) (ρ : Dev nD → PrngReg)

/-- The kernel's output array: row `r`, feature `d` of the specification. -/
def rowsOut (c : Dev nD) : S4096x4096.Idx → EReal := fun y =>
  Cert.Ffn.flat (xrows m c) (argW1 m c) (argB1 m c) (argW2 m c) (argB2 m c) ⟨(y 0).val, idx2_lt0 y⟩ ⟨(y 1).val, idx2_lt1 y⟩

/-- The output block at a last tile, at any index of the block. -/
theorem output_at_idx (c : Dev nD) (t : Fin cfg0.N) (hl : t.val % 64 = 63) (y : S512x4096.Idx)
    (hrow : 512 * (t.val / 64) + (y 0).val < 4096) :
    (outsAt0 m c t.val t.isLt).1 y
      = Cert.Ffn.flat (xrows m c) (argW1 m c) (argB1 m c) (argW2 m c) (argB2 m c) ⟨512 * (t.val / 64) + (y 0).val, hrow⟩ ⟨(y 1).val, idx2_lt1 y⟩ := by
  obtain ⟨p, q, rfl⟩ : ∃ (p : Fin 512) (q : Fin 4096), y = ix2 p q := ⟨y 0, y 1, eq_ix2 y⟩
  exact output_at m c t hl p q hrow

/-- What a last tile writes back is its block of `rowsOut`. -/
theorem flushed_eq (c : Dev nD) (t : Fin cfg0.N) (hf : (cfg0.win 5).flush t = true) :
    (dats m 0 c).flushed 5 t = ((cfg0.win 5).blk t).view.read (Elt Ideal) (rowsOut m c) := by
  have hl : t.val % 64 = 63 := (flush0_5 t).mp hf
  have hN : t.val < 512 := lt_of_lt_of_eq t.isLt N_0
  obtain ⟨-, -, -, -, -, -, -, -, -, -, e0, e1⟩ := block_index t
  show (cfg0.win 5).cut (grid0.coords t) ((dats m 0 c).after 5 t) = _
  rw [after0_5]
  funext y
  have hy0 : (y 0).val < 512 := (y 0).isLt
  have hrow : 512 * (t.val / 64) + (y 0).val < 4096 := by omega
  show (outsAt0 m c t.val t.isLt).1 y = rowsOut m c (((cfg0.win 5).blk t).view.emb y)
  refine (output_at_idx m c t hl y hrow).trans ?_
  unfold rowsOut
  congr 1 <;> apply Fin.ext
  · show 512 * (t.val / 64) + (y 0).val = win0_5.index t (0 : Fin 2) * 512 + 1 * (y 0).val
    omega
  · show (y 1).val = win0_5.index t (1 : Fin 2) * 4096 + 1 * (y 1).val
    omega

/-- An index of the output array is in point `t`'s block iff each coordinate is in the block's range. -/
theorem mem_block (t : Fin cfg0.N) (i : S4096x4096.Idx) :
    i ∈ ((cfg0.win 5).blk t).view.set ↔ ∀ a : Fin 2, win0_5.index t a * S512x4096.size a ≤ (i a).val
      ∧ (i a).val < win0_5.index t a * S512x4096.size a + S512x4096.size a := by
  show i ∈ ((View.whole main_v6).slice (win0_5.rect t)).set ↔ _
  rw [View.set_slice_whole, Rect.mem_set_unit]
  exact Iff.rfl

/-- Every entry of the output array is in the block some last tile writes back. -/
theorem covered (i : S4096x4096.Idx) :
    ∃ t : Fin cfg0.N, (cfg0.win 5).flush t = true ∧ i ∈ ((cfg0.win 5).blk t).view.set := by
  have hi0 : (i 0).val < 4096 := idx2_lt0 i
  have hi1 : (i 1).val < 4096 := idx2_lt1 i
  have hN : cfg0.N = 512 := N_0
  have ht : 64 * ((i 0).val / 512) + 63 < cfg0.N := by omega
  obtain ⟨-, -, -, -, -, -, -, -, -, -, e0, e1⟩ := block_index ⟨64 * ((i 0).val / 512) + 63, ht⟩
  have e0' : win0_5.index ⟨64 * ((i 0).val / 512) + 63, ht⟩ (0 : Fin 2) = (64 * ((i 0).val / 512) + 63) / 64 := e0
  refine ⟨⟨64 * ((i 0).val / 512) + 63, ht⟩, (flush0_5 _).mpr (by show (64 * ((i 0).val / 512) + 63) % 64 = 63; omega), ?_⟩
  rw [mem_block]
  intro a
  match a with
  | ⟨0, _⟩ =>
    show win0_5.index ⟨64 * ((i 0).val / 512) + 63, ht⟩ (0 : Fin 2) * 512 ≤ (i 0).val
      ∧ (i 0).val < win0_5.index ⟨64 * ((i 0).val / 512) + 63, ht⟩ (0 : Fin 2) * 512 + 512
    omega
  | ⟨1, _⟩ =>
    show win0_5.index ⟨64 * ((i 0).val / 512) + 63, ht⟩ (1 : Fin 2) * 4096 ≤ (i 1).val
      ∧ (i 1).val < win0_5.index ⟨64 * ((i 0).val / 512) + 63, ht⟩ (1 : Fin 2) * 4096 + 4096
    omega

/-- So the kernel's output array ends at `rowsOut`. -/
theorem final_rows (c : Dev nD) : (dats m 0 c).arrAt 5 cfg0.N = rowsOut m c :=
  (dats m 0 c).arrAt_eq_of_cover 5 (rowsOut m c) (fun t hf => flushed_eq m c t hf) covered

/-- The reshape of `rowsOut` to `[2, 2048, 4096]` is the specification. -/
theorem reshape_rows (c : Dev nD) :
    shapeCast S2x2048x4096 (rowsOut m c) Facts₀.shapeCasts_S4096x4096_S2x2048x4096
      = Cert.Ffn.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) Facts₀.shapeCasts_S2x2048x4096_S4096x4096 := by
  funext i
  refine (shapeCast_apply (rowsOut m c) _ i (ix2 (Cert.Ffn.rowOf i) (Cert.Ffn.colOf i)) ?_).trans rfl
  rw [Shape.rowMajor_val_two, Shape.rowMajor_val_three]
  rfl

/-- The program's result buffer after the host reshape that follows the kernel. -/
theorem tail_eq (c : Dev nD) :
    Pipeline.afterTail₀ cfgs (dats m) 0 (V0 m) [hostOps1] c main_v7
      = shapeCast S2x2048x4096 (rowsOut m c) Facts₀.shapeCasts_S4096x4096_S2x2048x4096 := by
  unfold Pipeline.afterTail₀
  show StableHlo.after hostOps1 _ (Proc.devRef .tc main_v7) = _
  after_results
  refine congrArg (fun X => shapeCast S2x2048x4096 X Facts₀.shapeCasts_S4096x4096_S2x2048x4096) ?_
  exact (Pipeline.withArrays_arr spec0 launch0.win.arr_inj c _ _ 5).trans (final_rows m c)

/-- The run, read: the result at the specification of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v7)
        = Cert.Ffn.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) Facts₀.shapeCasts_S2x2048x4096_S4096x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v7 (Pipeline.mem_restRefs_of main_v7 (by decide) (by decide))).trans ((tail_eq m c).trans (reshape_rows m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernValue

end
-- ==== Proof.RefTerm.lean ====
/-
  The reference program's forty-six host operations composed, as one function of its five arguments.

  In stages: the first product plus its bias (`flatten x · W1 + b1`, the bias spread over the rows in two steps);
  the tanh form of GELU spelt pointwise over that; the second product; the three guarded selects that write zero
  where a value differs from itself, equals `+∞` or equals `-∞`; the reshape back to three axes plus the second
  bias (spread in two steps). Stated at the exact extended-real values.
-/
import proofs.«127796_j23699629539600_1_alg».proof.Proof.Gen.ReferenceIdeal
import Idealize.ShloMosaic.PureOps.Ideal

noncomputable section

namespace Cert.ReferenceIdeal.RefTerm

open Cert.ReferenceIdeal Cert.ReferenceIdeal.Gen Idealize.ShloMosaic

/-- The first product plus its bias: `flatten x · W1 + b1`, the bias written as a one-row matrix and repeated down the rows. -/
def preActivation (x : FVec Ideal S2x2048x4096 .f32) (W1 : FVec Ideal S4096x16384 .f32) (b1 : FVec Ideal S16384 .f32) :
    FVec Ideal S4096x16384 .f32 :=
  addf (Host.dotGeneral dot_S4096x4096_S4096x16384_S4096x16384_1_0_0_1_n_n none
      (shapeCast S4096x4096 x shapeCasts_S2x2048x4096_S4096x4096) W1)
    (broadcastInDim S4096x16384 ![0, 1] bcast_S1x16384_S4096x16384_0_1
      (broadcastInDim S1x16384 ![1] bcast_S16384_S1x16384_1 b1))

/-- A scalar constant spread over the hidden layer's shape. -/
def hiddenSplat (b : BitVec 32) : FVec Ideal S4096x16384 .f32 :=
  broadcastInDim S4096x16384 ![] bcast_S_S4096x16384 (constant (F := Ideal) S_ .f32 b)

/-- The tanh form of GELU, entry by entry: `v · (1/2 · (1 + tanh (c₁ · (v + c₀ · ((v · v) · v)))))`. -/
def activation (v : FVec Ideal S4096x16384 .f32) : FVec Ideal S4096x16384 .f32 :=
  mulf v (mulf (hiddenSplat 0x3F000000#32) (addf (hiddenSplat 0x3F800000#32)
    (Host.tanh (mulf (hiddenSplat 0x3F4C422A#32) (addf v (mulf (hiddenSplat 0x3D372713#32) (mulf (mulf v v) v)))))))

/-- A scalar constant spread over the flattened output's shape. -/
def outSplat (b : BitVec 32) : FVec Ideal S4096x4096 .f32 :=
  broadcastInDim S4096x4096 ![] bcast_S_S4096x4096 (constant (F := Ideal) S_ .f32 b)

/-- `y` with zero written wherever the comparison `p` of `y` against `w` holds. -/
def zeroWhere (p : CmpFPredicate) (w y : FVec Ideal S4096x4096 .f32) : FVec Ideal S4096x4096 .f32 :=
  select (cmpf p y w) (outSplat 0x00000000#32) y

/-- The three guarded selects: zero where `y` differs from itself, then at `+∞`, then at `-∞`. -/
def guarded (y : FVec Ideal S4096x4096 .f32) : FVec Ideal S4096x4096 .f32 :=
  zeroWhere .oeq (outSplat 0xFF800000#32) (zeroWhere .oeq (outSplat 0x7F800000#32) (zeroWhere .une y y))

/-- The whole line: the result buffer's contents as a function of the five arguments' contents. -/
def result (x : FVec Ideal S2x2048x4096 .f32) (W1 : FVec Ideal S4096x16384 .f32) (b1 : FVec Ideal S16384 .f32)
    (W2 : FVec Ideal S16384x4096 .f32) (b2 : FVec Ideal S4096 .f32) : FVec Ideal S2x2048x4096 .f32 :=
  addf (shapeCast S2x2048x4096
      (guarded (Host.dotGeneral dot_S4096x16384_S16384x4096_S4096x4096_1_0_0_1_n_n none (activation (preActivation x W1 b1)) W2))
      shapeCasts_S4096x4096_S2x2048x4096)
    (broadcastInDim S2x2048x4096 ![0, 1, 2] bcast_S1x1x4096_S2x2048x4096_0_1_2
      (broadcastInDim S1x1x4096 ![2] bcast_S4096_S1x1x4096_2 b2))

end Cert.ReferenceIdeal.RefTerm

end
-- ==== Proof.RefRun.lean ====
/-
  The reference program's run, read back as one term of its five arguments.

  The program is a straight line of forty-six host operations once its two outlined functions are unfolded at
  their calls: the flattening of `x`, the first product and its bias (spread over the rows in two steps), the
  tanh form of GELU spelt pointwise, the second product, the three guarded selects that replace a value
  different from itself, equal to `+∞` or equal to `-∞` by zero, the reshape back to three axes and the second
  bias (spread in two steps). Every weakly fair execution terminates with the result buffer at the composition
  `result` of those operations applied to the arguments' launch contents, and with the arguments unchanged.
-/
import proofs.«127796_j23699629539600_1_alg».proof.Proof.Gen.ReferenceIdeal
import proofs.«127796_j23699629539600_1_alg».proof.Proof.RefTerm
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

/-! ## The program as a list of operations -/

variable {F : FTy → Type} [FloatOps F]

/-- @main's operations in order, the two outlined functions unfolded at their calls: the guard is sixteen
    operations into the call's own buffers (a comparison, the replacement value converted to its own type,
    its spread and the select, three times over, with the two infinite constants and their spreads between). -/
abbrev ops : List (HloOp τ sig (Elt F)) :=
  [ reshape main_arg0 main_v0 rfl shapeCasts_S2x2048x4096_S4096x4096,
    binary main_v0 main_arg1 main_v1 ((fun l r => Host.dotGeneral dot_S4096x4096_S4096x16384_S4096x16384_1_0_0_1_n_n none l r) : (⟨S4096x4096, .f32⟩ : BufTy).Contents (Elt F) → (⟨S4096x16384, .f32⟩ : BufTy).Contents (Elt F) → (⟨S4096x16384, .f32⟩ : BufTy).Contents (Elt F)),
    unary main_arg2 main_v2 (broadcastInDim S1x16384 ![1] bcast_S16384_S1x16384_1 : (⟨S16384, .f32⟩ : BufTy).Contents (Elt F) → (⟨S1x16384, .f32⟩ : BufTy).Contents (Elt F)),
    unary main_v2 main_v3 (broadcastInDim S4096x16384 ![0, 1] bcast_S1x16384_S4096x16384_0_1 : (⟨S1x16384, .f32⟩ : BufTy).Contents (Elt F) → (⟨S4096x16384, .f32⟩ : BufTy).Contents (Elt F)),
    binary main_v1 main_v3 main_v4 (addf : (⟨S4096x16384, .f32⟩ : BufTy).Contents (Elt F) → (⟨S4096x16384, .f32⟩ : BufTy).Contents (Elt F) → (⟨S4096x16384, .f32⟩ : BufTy).Contents (Elt F)),
    binary main_v4 main_v4 main_v5 (mulf : (⟨S4096x16384, .f32⟩ : BufTy).Contents (Elt F) → (⟨S4096x16384, .f32⟩ : BufTy).Contents (Elt F) → (⟨S4096x16384, .f32⟩ : BufTy).Contents (Elt F)),
    binary main_v5 main_v4 main_v6 (mulf : (⟨S4096x16384, .f32⟩ : BufTy).Contents (Elt F) → (⟨S4096x16384, .f32⟩ : BufTy).Contents (Elt F) → (⟨S4096x16384, .f32⟩ : BufTy).Contents (Elt F)),
    nullary main_cst (constant S_ .f32 0x3D372713#32),
    unary main_cst main_v7 (broadcastInDim S4096x16384 ![] bcast_S_S4096x16384 : (⟨S_, .f32⟩ : BufTy).Contents (Elt F) → (⟨S4096x16384, .f32⟩ : BufTy).Contents (Elt F)),
    binary main_v7 main_v6 main_v8 (mulf : (⟨S4096x16384, .f32⟩ : BufTy).Contents (Elt F) → (⟨S4096x16384, .f32⟩ : BufTy).Contents (Elt F) → (⟨S4096x16384, .f32⟩ : BufTy).Contents (Elt F)),
    binary main_v4 main_v8 main_v9 (addf : (⟨S4096x16384, .f32⟩ : BufTy).Contents (Elt F) → (⟨S4096x16384, .f32⟩ : BufTy).Contents (Elt F) → (⟨S4096x16384, .f32⟩ : BufTy).Contents (Elt F)),
    nullary main_cst_0 (constant S_ .f32 0x3F4C422A#32),
    unary main_cst_0 main_v10 (broadcastInDim S4096x16384 ![] bcast_S_S4096x16384 : (⟨S_, .f32⟩ : BufTy).Contents (Elt F) → (⟨S4096x16384, .f32⟩ : BufTy).Contents (Elt F)),
    binary main_v10 main_v9 main_v11 (mulf : (⟨S4096x16384, .f32⟩ : BufTy).Contents (Elt F) → (⟨S4096x16384, .f32⟩ : BufTy).Contents (Elt F) → (⟨S4096x16384, .f32⟩ : BufTy).Contents (Elt F)),
    unary main_v11 main_v12 (Host.tanh : (⟨S4096x16384, .f32⟩ : BufTy).Contents (Elt F) → (⟨S4096x16384, .f32⟩ : BufTy).Contents (Elt F)),
    nullary main_cst_1 (constant S_ .f32 0x3F800000#32),
    unary main_cst_1 main_v13 (broadcastInDim S4096x16384 ![] bcast_S_S4096x16384 : (⟨S_, .f32⟩ : BufTy).Contents (Elt F) → (⟨S4096x16384, .f32⟩ : BufTy).Contents (Elt F)),
    binary main_v13 main_v12 main_v14 (addf : (⟨S4096x16384, .f32⟩ : BufTy).Contents (Elt F) → (⟨S4096x16384, .f32⟩ : BufTy).Contents (Elt F) → (⟨S4096x16384, .f32⟩ : BufTy).Contents (Elt F)),
    nullary main_cst_2 (constant S_ .f32 0x3F000000#32),
    unary main_cst_2 main_v15 (broadcastInDim S4096x16384 ![] bcast_S_S4096x16384 : (⟨S_, .f32⟩ : BufTy).Contents (Elt F) → (⟨S4096x16384, .f32⟩ : BufTy).Contents (Elt F)),
    binary main_v15 main_v14 main_v16 (mulf : (⟨S4096x16384, .f32⟩ : BufTy).Contents (Elt F) → (⟨S4096x16384, .f32⟩ : BufTy).Contents (Elt F) → (⟨S4096x16384, .f32⟩ : BufTy).Contents (Elt F)),
    binary main_v4 main_v16 main_v17 (mulf : (⟨S4096x16384, .f32⟩ : BufTy).Contents (Elt F) → (⟨S4096x16384, .f32⟩ : BufTy).Contents (Elt F) → (⟨S4096x16384, .f32⟩ : BufTy).Contents (Elt F)),
    binary main_v17 main_arg3 main_v18 ((fun l r => Host.dotGeneral dot_S4096x16384_S16384x4096_S4096x4096_1_0_0_1_n_n none l r) : (⟨S4096x16384, .f32⟩ : BufTy).Contents (Elt F) → (⟨S16384x4096, .f32⟩ : BufTy).Contents (Elt F) → (⟨S4096x4096, .f32⟩ : BufTy).Contents (Elt F)),
    nullary main_cst_3 (constant S_ .f32 0x00000000#32),
    nullary main_cst_4 (constant S_ .f32 0x00000000#32),
    nullary main_cst_5 (constant S_ .f32 0x00000000#32),
    TRef.binary (.of main_v18) (.of main_v18) main_call0.v0 (cmpf .une),
    TRef.unary (.of main_cst_3) main_call0.v1 id,
    TRef.unary main_call0.v1 main_call0.call0.v0 (broadcastInDim S4096x4096 ![] bcast_S_S4096x4096),
    TRef.ternary main_call0.v0 main_call0.call0.v0 (.of main_v18) main_call0.call0.v1 select,
    TRef.nullary main_call0.cst (constant S_ .f32 0x7F800000#32),
    TRef.unary main_call0.cst main_call0.v3 (broadcastInDim S4096x4096 ![] bcast_S_S4096x4096),
    TRef.binary main_call0.call0.v1 main_call0.v3 main_call0.v4 (cmpf .oeq),
    TRef.unary (.of main_cst_5) main_call0.v5 id,
    TRef.unary main_call0.v5 main_call0.call1.v0 (broadcastInDim S4096x4096 ![] bcast_S_S4096x4096),
    TRef.ternary main_call0.v4 main_call0.call1.v0 main_call0.call0.v1 main_call0.call1.v1 select,
    TRef.nullary main_call0.cst_0 (constant S_ .f32 0xFF800000#32),
    TRef.unary main_call0.cst_0 main_call0.v7 (broadcastInDim S4096x4096 ![] bcast_S_S4096x4096),
    TRef.binary main_call0.call1.v1 main_call0.v7 main_call0.v8 (cmpf .oeq),
    TRef.unary (.of main_cst_4) main_call0.v9 id,
    TRef.unary main_call0.v9 main_call0.call2.v0 (broadcastInDim S4096x4096 ![] bcast_S_S4096x4096),
    TRef.ternary main_call0.v8 main_call0.call2.v0 main_call0.call1.v1 main_call0.call2.v1 select,
    reshape main_v19 main_v20 rfl shapeCasts_S4096x4096_S2x2048x4096,
    unary main_arg4 main_v21 (broadcastInDim S1x1x4096 ![2] bcast_S4096_S1x1x4096_2 : (⟨S4096, .f32⟩ : BufTy).Contents (Elt F) → (⟨S1x1x4096, .f32⟩ : BufTy).Contents (Elt F)),
    unary main_v21 main_v22 (broadcastInDim S2x2048x4096 ![0, 1, 2] bcast_S1x1x4096_S2x2048x4096_0_1_2 : (⟨S1x1x4096, .f32⟩ : BufTy).Contents (Elt F) → (⟨S2x2048x4096, .f32⟩ : BufTy).Contents (Elt F)),
    binary main_v20 main_v22 main_v23 (addf : (⟨S2x2048x4096, .f32⟩ : BufTy).Contents (Elt F) → (⟨S2x2048x4096, .f32⟩ : BufTy).Contents (Elt F) → (⟨S2x2048x4096, .f32⟩ : BufTy).Contents (Elt F)) ]

set_option maxRecDepth 1024 in
/-- @main is that straight line: the functions' definitions unfolded at their calls and the records at their
    fields, both sides are one chain of steps once sequencing is reassociated. -/
theorem main_eq (c : Dev nD) : main (F := F) c = seq ops := by
  simp only [main, fn_nan_to_num.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., nullary_bufs_sub .., nullary_bufs_sub .., nullary_bufs_sub .., binary_bufs_sub .., unary_bufs_sub .., unary_bufs_sub .., ternary_bufs_sub .., nullary_bufs_sub .., unary_bufs_sub .., binary_bufs_sub .., unary_bufs_sub .., unary_bufs_sub .., ternary_bufs_sub .., nullary_bufs_sub .., unary_bufs_sub .., binary_bufs_sub .., unary_bufs_sub .., unary_bufs_sub .., ternary_bufs_sub .., reshape_bufs_sub .., unary_bufs_sub .., unary_bufs_sub .., binary_bufs_sub ..⟩

/-- Every weakly fair execution of @main terminates, and every final state has each buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read back at the result and at the arguments

The line is read in three stretches, so that each stretch's composition is compared with its stage of
`RefTerm` over the previous stretch's buffers as opaque values: up to the activated hidden layer, from there
through the second product and the guard, and the closing reshape and bias. -/

/-- The fold over two lines in a row is the second line's fold over the first's. -/
theorem after_two_lines : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two_lines l₁ l₂]

/-- The first twenty-two operations: through the activated hidden layer. -/
abbrev opsHidden : List (HloOp τ sig (Elt F)) :=
  [ reshape main_arg0 main_v0 rfl shapeCasts_S2x2048x4096_S4096x4096,
    binary main_v0 main_arg1 main_v1 ((fun l r => Host.dotGeneral dot_S4096x4096_S4096x16384_S4096x16384_1_0_0_1_n_n none l r) : (⟨S4096x4096, .f32⟩ : BufTy).Contents (Elt F) → (⟨S4096x16384, .f32⟩ : BufTy).Contents (Elt F) → (⟨S4096x16384, .f32⟩ : BufTy).Contents (Elt F)),
    unary main_arg2 main_v2 (broadcastInDim S1x16384 ![1] bcast_S16384_S1x16384_1 : (⟨S16384, .f32⟩ : BufTy).Contents (Elt F) → (⟨S1x16384, .f32⟩ : BufTy).Contents (Elt F)),
    unary main_v2 main_v3 (broadcastInDim S4096x16384 ![0, 1] bcast_S1x16384_S4096x16384_0_1 : (⟨S1x16384, .f32⟩ : BufTy).Contents (Elt F) → (⟨S4096x16384, .f32⟩ : BufTy).Contents (Elt F)),
    binary main_v1 main_v3 main_v4 (addf : (⟨S4096x16384, .f32⟩ : BufTy).Contents (Elt F) → (⟨S4096x16384, .f32⟩ : BufTy).Contents (Elt F) → (⟨S4096x16384, .f32⟩ : BufTy).Contents (Elt F)),
    binary main_v4 main_v4 main_v5 (mulf : (⟨S4096x16384, .f32⟩ : BufTy).Contents (Elt F) → (⟨S4096x16384, .f32⟩ : BufTy).Contents (Elt F) → (⟨S4096x16384, .f32⟩ : BufTy).Contents (Elt F)),
    binary main_v5 main_v4 main_v6 (mulf : (⟨S4096x16384, .f32⟩ : BufTy).Contents (Elt F) → (⟨S4096x16384, .f32⟩ : BufTy).Contents (Elt F) → (⟨S4096x16384, .f32⟩ : BufTy).Contents (Elt F)),
    nullary main_cst (constant S_ .f32 0x3D372713#32),
    unary main_cst main_v7 (broadcastInDim S4096x16384 ![] bcast_S_S4096x16384 : (⟨S_, .f32⟩ : BufTy).Contents (Elt F) → (⟨S4096x16384, .f32⟩ : BufTy).Contents (Elt F)),
    binary main_v7 main_v6 main_v8 (mulf : (⟨S4096x16384, .f32⟩ : BufTy).Contents (Elt F) → (⟨S4096x16384, .f32⟩ : BufTy).Contents (Elt F) → (⟨S4096x16384, .f32⟩ : BufTy).Contents (Elt F)),
    binary main_v4 main_v8 main_v9 (addf : (⟨S4096x16384, .f32⟩ : BufTy).Contents (Elt F) → (⟨S4096x16384, .f32⟩ : BufTy).Contents (Elt F) → (⟨S4096x16384, .f32⟩ : BufTy).Contents (Elt F)),
    nullary main_cst_0 (constant S_ .f32 0x3F4C422A#32),
    unary main_cst_0 main_v10 (broadcastInDim S4096x16384 ![] bcast_S_S4096x16384 : (⟨S_, .f32⟩ : BufTy).Contents (Elt F) → (⟨S4096x16384, .f32⟩ : BufTy).Contents (Elt F)),
    binary main_v10 main_v9 main_v11 (mulf : (⟨S4096x16384, .f32⟩ : BufTy).Contents (Elt F) → (⟨S4096x16384, .f32⟩ : BufTy).Contents (Elt F) → (⟨S4096x16384, .f32⟩ : BufTy).Contents (Elt F)),
    unary main_v11 main_v12 (Host.tanh : (⟨S4096x16384, .f32⟩ : BufTy).Contents (Elt F) → (⟨S4096x16384, .f32⟩ : BufTy).Contents (Elt F)),
    nullary main_cst_1 (constant S_ .f32 0x3F800000#32),
    unary main_cst_1 main_v13 (broadcastInDim S4096x16384 ![] bcast_S_S4096x16384 : (⟨S_, .f32⟩ : BufTy).Contents (Elt F) → (⟨S4096x16384, .f32⟩ : BufTy).Contents (Elt F)),
    binary main_v13 main_v12 main_v14 (addf : (⟨S4096x16384, .f32⟩ : BufTy).Contents (Elt F) → (⟨S4096x16384, .f32⟩ : BufTy).Contents (Elt F) → (⟨S4096x16384, .f32⟩ : BufTy).Contents (Elt F)),
    nullary main_cst_2 (constant S_ .f32 0x3F000000#32),
    unary main_cst_2 main_v15 (broadcastInDim S4096x16384 ![] bcast_S_S4096x16384 : (⟨S_, .f32⟩ : BufTy).Contents (Elt F) → (⟨S4096x16384, .f32⟩ : BufTy).Contents (Elt F)),
    binary main_v15 main_v14 main_v16 (mulf : (⟨S4096x16384, .f32⟩ : BufTy).Contents (Elt F) → (⟨S4096x16384, .f32⟩ : BufTy).Contents (Elt F) → (⟨S4096x16384, .f32⟩ : BufTy).Contents (Elt F)),
    binary main_v4 main_v16 main_v17 (mulf : (⟨S4096x16384, .f32⟩ : BufTy).Contents (Elt F) → (⟨S4096x16384, .f32⟩ : BufTy).Contents (Elt F) → (⟨S4096x16384, .f32⟩ : BufTy).Contents (Elt F)) ]

/-- The next twenty: the second product, the three zero constants and the guard's sixteen operations. -/
abbrev opsGuard : List (HloOp τ sig (Elt F)) :=
  [ binary main_v17 main_arg3 main_v18 ((fun l r => Host.dotGeneral dot_S4096x16384_S16384x4096_S4096x4096_1_0_0_1_n_n none l r) : (⟨S4096x16384, .f32⟩ : BufTy).Contents (Elt F) → (⟨S16384x4096, .f32⟩ : BufTy).Contents (Elt F) → (⟨S4096x4096, .f32⟩ : BufTy).Contents (Elt F)),
    nullary main_cst_3 (constant S_ .f32 0x00000000#32),
    nullary main_cst_4 (constant S_ .f32 0x00000000#32),
    nullary main_cst_5 (constant S_ .f32 0x00000000#32),
    TRef.binary (.of main_v18) (.of main_v18) main_call0.v0 (cmpf .une),
    TRef.unary (.of main_cst_3) main_call0.v1 id,
    TRef.unary main_call0.v1 main_call0.call0.v0 (broadcastInDim S4096x4096 ![] bcast_S_S4096x4096),
    TRef.ternary main_call0.v0 main_call0.call0.v0 (.of main_v18) main_call0.call0.v1 select,
    TRef.nullary main_call0.cst (constant S_ .f32 0x7F800000#32),
    TRef.unary main_call0.cst main_call0.v3 (broadcastInDim S4096x4096 ![] bcast_S_S4096x4096),
    TRef.binary main_call0.call0.v1 main_call0.v3 main_call0.v4 (cmpf .oeq),
    TRef.unary (.of main_cst_5) main_call0.v5 id,
    TRef.unary main_call0.v5 main_call0.call1.v0 (broadcastInDim S4096x4096 ![] bcast_S_S4096x4096),
    TRef.ternary main_call0.v4 main_call0.call1.v0 main_call0.call0.v1 main_call0.call1.v1 select,
    TRef.nullary main_call0.cst_0 (constant S_ .f32 0xFF800000#32),
    TRef.unary main_call0.cst_0 main_call0.v7 (broadcastInDim S4096x4096 ![] bcast_S_S4096x4096),
    TRef.binary main_call0.call1.v1 main_call0.v7 main_call0.v8 (cmpf .oeq),
    TRef.unary (.of main_cst_4) main_call0.v9 id,
    TRef.unary main_call0.v9 main_call0.call2.v0 (broadcastInDim S4096x4096 ![] bcast_S_S4096x4096),
    TRef.ternary main_call0.v8 main_call0.call2.v0 main_call0.call1.v1 main_call0.call2.v1 select ]

/-- The last four: the reshape to three axes, the second bias spread in two steps, and the sum. -/
abbrev opsTail : List (HloOp τ sig (Elt F)) :=
  [ reshape main_v19 main_v20 rfl shapeCasts_S4096x4096_S2x2048x4096,
    unary main_arg4 main_v21 (broadcastInDim S1x1x4096 ![2] bcast_S4096_S1x1x4096_2 : (⟨S4096, .f32⟩ : BufTy).Contents (Elt F) → (⟨S1x1x4096, .f32⟩ : BufTy).Contents (Elt F)),
    unary main_v21 main_v22 (broadcastInDim S2x2048x4096 ![0, 1, 2] bcast_S1x1x4096_S2x2048x4096_0_1_2 : (⟨S1x1x4096, .f32⟩ : BufTy).Contents (Elt F) → (⟨S2x2048x4096, .f32⟩ : BufTy).Contents (Elt F)),
    binary main_v20 main_v22 main_v23 (addf : (⟨S2x2048x4096, .f32⟩ : BufTy).Contents (Elt F) → (⟨S2x2048x4096, .f32⟩ : BufTy).Contents (Elt F) → (⟨S2x2048x4096, .f32⟩ : BufTy).Contents (Elt F)) ]

/-- The second stretch's composition: the guarded second product of the hidden layer's contents. -/
def guardStage (a : FVec Ideal S4096x16384 .f32) (W2 : FVec Ideal S16384x4096 .f32) : FVec Ideal S4096x4096 .f32 :=
  guarded (Host.dotGeneral dot_S4096x16384_S16384x4096_S4096x4096_1_0_0_1_n_n none a W2)

/-- The last stretch's composition: the flat guarded product reshaped to three axes, plus the spread second bias. -/
def tailStage (y : FVec Ideal S4096x4096 .f32) (b2 : FVec Ideal S4096 .f32) : FVec Ideal S2x2048x4096 .f32 :=
  addf (shapeCast S2x2048x4096 y shapeCasts_S4096x4096_S2x2048x4096)
    (broadcastInDim S2x2048x4096 ![0, 1, 2] bcast_S1x1x4096_S2x2048x4096_0_1_2
      (broadcastInDim S1x1x4096 ![2] bcast_S4096_S1x1x4096_2 b2))

theorem ops_split : (ops : List (HloOp τ sig (Elt F))) = opsHidden ++ (opsGuard ++ opsTail) := rfl

set_option maxRecDepth 8192 in
/-- After the first stretch the hidden layer's buffer holds the activation of the pre-activation. -/
theorem hidden_eq (V : Valuation τ sig (Elt Ideal)) :
    after opsHidden V (main_v17 : DevRef τ sig)
      = activation (preActivation (V (main_arg0 : DevRef τ sig)) (V (main_arg1 : DevRef τ sig)) (V (main_arg2 : DevRef τ sig))) := by
  after_results_simp
  rfl
theorem hidden_arg3 (V : Valuation τ sig (Elt Ideal)) : after opsHidden V (main_arg3 : DevRef τ sig) = V (main_arg3 : DevRef τ sig) := by
  after_results_simp
theorem hidden_arg4 (V : Valuation τ sig (Elt Ideal)) : after opsHidden V (main_arg4 : DevRef τ sig) = V (main_arg4 : DevRef τ sig) := by
  after_results_simp

-- three nested selects, every operand behind the typed references' transports: the comparison of the two sides
-- recurses deeper than the default bound
set_option maxRecDepth 32768 in
/-- After the second stretch the guard's result buffer holds the guarded second product. -/
theorem guard_eq (V : Valuation τ sig (Elt Ideal)) :
    after opsGuard V (main_v19 : DevRef τ sig)
      = guardStage (V (main_v17 : DevRef τ sig)) (V (main_arg3 : DevRef τ sig)) := by
  after_results_simp
  rfl
theorem guard_arg4 (V : Valuation τ sig (Elt Ideal)) : after opsGuard V (main_arg4 : DevRef τ sig) = V (main_arg4 : DevRef τ sig) := by
  after_results_simp

/-- After the last stretch the result buffer holds the reshaped guard's result plus the spread bias. -/
theorem tail_eq (V : Valuation τ sig (Elt Ideal)) :
    after opsTail V (main_v23 : DevRef τ sig)
      = tailStage (V (main_v19 : DevRef τ sig)) (V (main_arg4 : DevRef τ sig)) := by
  after_results_simp
  rfl

/-- The fold at the result buffer is `result` of the arguments' contents. -/
theorem result_eq (V : Valuation τ sig (Elt Ideal)) :
    after ops V (main_v23 : DevRef τ sig)
      = result (V (main_arg0 : DevRef τ sig)) (V (main_arg1 : DevRef τ sig)) (V (main_arg2 : DevRef τ sig))
          (V (main_arg3 : DevRef τ sig)) (V (main_arg4 : DevRef τ sig)) := by
  rw [ops_split, after_two_lines, after_two_lines, tail_eq, guard_eq, guard_arg4, hidden_eq, hidden_arg3, hidden_arg4]
  rfl

theorem arg0_eq (V : Valuation τ sig (Elt Ideal)) : after ops V (main_arg0 : DevRef τ sig) = V (main_arg0 : DevRef τ sig) := by
  after_results_simp
theorem arg1_eq (V : Valuation τ sig (Elt Ideal)) : after ops V (main_arg1 : DevRef τ sig) = V (main_arg1 : DevRef τ sig) := by
  after_results_simp
theorem arg2_eq (V : Valuation τ sig (Elt Ideal)) : after ops V (main_arg2 : DevRef τ sig) = V (main_arg2 : DevRef τ sig) := by
  after_results_simp
theorem arg3_eq (V : Valuation τ sig (Elt Ideal)) : after ops V (main_arg3 : DevRef τ sig) = V (main_arg3 : DevRef τ sig) := by
  after_results_simp
theorem arg4_eq (V : Valuation τ sig (Elt Ideal)) : after ops V (main_arg4 : DevRef τ sig) = V (main_arg4 : DevRef τ sig) := by
  after_results_simp

/-- On every device, from any memory with zero counters: every weakly fair execution of @main terminates with the
    result at `result` of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v23).trans (result_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.RefRun

end
-- ==== Proof.LibBroadcastInDim.lean ====
/-
  `broadcast_in_dim` read at an index, for four shapes a host program takes a row statistic or a bias through
  (the library has the fifth, a scalar spread over any shape): a vector written as a column; a column repeated along every column; a vector written
  as a one-row matrix; a one-row matrix repeated down every row. In each the entry of the result at an index is the
  operand's entry at the coordinates the operand has.
-/
import Idealize.ShloMosaic.Lib.Pipeline.Value
import Idealize.ShloMosaic.Lib.ValueIdx

namespace Idealize.ShloMosaic.ValueIdx

variable {α : Type}

/-- An `[a]` vector written as the column `[a, 1]` (its axis sent to axis 0) reads, at `(p, u)`, the vector at `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ (![0] : Fin 1 → Fin 2) h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- An `[a, 1]` column repeated along the columns of `[a, b]` (axes kept in place) reads, at `(p, c)`, the column at row `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (![0, 1] : Fin 2 → Fin 2) h x (ix2 p c) = x (ix2 p (0 : Fin 1)) :=
  broadcastInDim_apply _ h x (ix2 p c) (ix2 p (0 : Fin 1)) fun ax => by
    match ax with
    | ⟨0, _⟩ =>
      show p.val = if a = 1 then 0 else p.val
      split
      · have := p.isLt; omega
      · rfl
    | ⟨1, _⟩ => rfl

/-- A `[b]` vector written as the one-row matrix `[1, b]` (its axis sent to axis 1) reads, at `(u, c)`, the vector at `c`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) :=
  broadcastInDim_apply _ h x (ix2 u c) (ix1 c) fun ax => by
    match ax with
    | ⟨0, _⟩ =>
      show c.val = if b = 1 then 0 else c.val
      split
      · have := c.isLt; omega
      · rfl

/-- A `[1, b]` one-row matrix repeated down the rows of `[a, b]` reads, at `(p, c)`, the row at column `c`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ (![0, 1] : Fin 2 → Fin 2) h x (ix2 p c) = x (ix2 (0 : Fin 1) c) :=
  broadcastInDim_apply _ h x (ix2 p c) (ix2 (0 : Fin 1) c) fun ax => by
    match ax with
    | ⟨0, _⟩ => rfl
    | ⟨1, _⟩ =>
      show c.val = if b = 1 then 0 else c.val
      split
      · have := c.isLt; omega
      · rfl

end Idealize.ShloMosaic.ValueIdx
-- ==== Proof.RefRead.lean ====
/-
  The reference's composed term is the specification, entry by entry.

  Read at an index, outermost operation first: the final sum is the reshaped guarded product plus the second
  bias at its feature; the reshape of the flat `[4096, 4096]` array reads row `b · 2048 + s`; each of the three
  selects is the scalar guard of the specification at that entry; the second product is the sum over the hidden
  units; the activation is the scalar GELU of the pre-activation, the cube `(v · v) · v` being `v · (v · v)`; and
  the pre-activation is the first product's sum plus the first bias at its unit.
-/
import proofs.«127796_j23699629539600_1_alg».proof.Proof.RefTerm
import proofs.«127796_j23699629539600_1_alg».proof.Proof.Spec
import proofs.«127796_j23699629539600_1_alg».proof.Proof.LibDense
import proofs.«127796_j23699629539600_1_alg».proof.Proof.LibBroadcastInDim
import Idealize.ShloMosaic.Lib.IdealHost

noncomputable section

namespace Cert.ReferenceIdeal.RefRead

open Cert.ReferenceIdeal Cert.ReferenceIdeal.Gen Cert.ReferenceIdeal.RefTerm Idealize.ShloMosaic Idealize.ShloMosaic.ValueIdx
open scoped BigOperators

/-! ## Layout operations of this program at an index -/

/-- A `[4096]` vector written as `[1, 1, 4096]` (its axis sent to axis 2) reads, at `(u, v, d)`, the vector at `d`. -/
theorem broadcastInDim_c_11c_apply {α : Type} (h : S4096.BroadcastsInDim S1x1x4096 (![2] : Fin 1 → Fin 3))
    (x : S4096.Idx → α) (u v : Fin 1) (d : Fin 4096) :
    broadcastInDim S1x1x4096 (![2] : Fin 1 → Fin 3) h x (ix3 u v d) = x (ix1 d) :=
  broadcastInDim_apply _ h x (ix3 u v d) (ix1 d) fun ax => by
    match ax with
    | ⟨0, _⟩ => rfl

/-- A `[1, 1, 4096]` array repeated over `[2, 2048, 4096]` reads, at `(b, s, d)`, its entry `(0, 0, d)`. -/
theorem broadcastInDim_11c_abc_apply {α : Type} (h : S1x1x4096.BroadcastsInDim S2x2048x4096 (![0, 1, 2] : Fin 3 → Fin 3))
    (x : S1x1x4096.Idx → α) (b : Fin 2) (s : Fin 2048) (d : Fin 4096) :
    broadcastInDim S2x2048x4096 (![0, 1, 2] : Fin 3 → Fin 3) h x (ix3 b s d) = x (ix3 (0 : Fin 1) (0 : Fin 1) d) :=
  broadcastInDim_apply _ h x (ix3 b s d) (ix3 (0 : Fin 1) (0 : Fin 1) d) fun ax => by
    match ax with
    | ⟨0, _⟩ => rfl
    | ⟨1, _⟩ => rfl
    | ⟨2, _⟩ => rfl

/-- The flat `[4096, 4096]` array reshaped to `[2, 2048, 4096]` reads, at `(b, s, d)`, row `b · 2048 + s`, column `d`:
    both have row-major position `(b · 2048 + s) · 4096 + d`. -/
theorem unflatten_apply {α : Type} (y : S4096x4096.Idx → α) (h : S4096x4096.ShapeCasts S2x2048x4096)
    (b : Fin 2) (s : Fin 2048) (d : Fin 4096) (t : Fin 4096) (ht : t.val = b.val * 2048 + s.val) :
    shapeCast S2x2048x4096 y h (ix3 b s d) = y (ix2 t d) :=
  shapeCast_apply y h _ _ (by
    rw [Shape.rowMajor_val_two, Shape.rowMajor_val_three]
    show t.val * 4096 + d.val = (b.val * 2048 + s.val) * 4096 + d.val
    rw [ht])

/-! ## The two products as sums -/

/-- The first product at `(t, j)`: the sum over the 4096 input features. -/
theorem firstProduct_apply (a : FVec Ideal S4096x4096 .f32) (w : FVec Ideal S4096x16384 .f32) (t : Fin 4096) (j : Fin 16384) :
    Host.dotGeneral dot_S4096x4096_S4096x16384_S4096x16384_1_0_0_1_n_n none a w (ix2 t j)
      = ∑ i : Fin 4096, a (ix2 t i) * w (ix2 i j) :=
  dotGeneral_plain_apply dot_S4096x4096_S4096x16384_S4096x16384_1_0_0_1_n_n none .single rfl rfl
    (fun i k => by
      unfold DotDims.lhsIdx
      rw [dif_neg (show ¬(0 : Fin S4096x4096.rank) ∈ dot_S4096x4096_S4096x16384_S4096x16384_1_0_0_1_n_n.lhsBatch by decide),
        dif_pos (show (0 : Fin S4096x4096.rank) ∈ dot_S4096x4096_S4096x16384_S4096x16384_1_0_0_1_n_n.lhsNonContracting by decide)]
      rfl)
    (fun i k => dot_S4096x4096_S4096x16384_S4096x16384_1_0_0_1_n_n.lhsIdx_val_of_single rfl i k)
    (fun i k => dot_S4096x4096_S4096x16384_S4096x16384_1_0_0_1_n_n.rhsIdx_val_of_single rfl i k)
    (fun i k => by
      unfold DotDims.rhsIdx
      rw [dif_neg (show ¬(1 : Fin S4096x16384.rank) ∈ dot_S4096x4096_S4096x16384_S4096x16384_1_0_0_1_n_n.rhsBatch by decide),
        dif_pos (show (1 : Fin S4096x16384.rank) ∈ dot_S4096x4096_S4096x16384_S4096x16384_1_0_0_1_n_n.rhsNonContracting by decide)]
      rfl)
    a w t j

/-- The second product at `(t, d)`: the sum over the 16384 hidden units. -/
theorem secondProduct_apply (a : FVec Ideal S4096x16384 .f32) (w : FVec Ideal S16384x4096 .f32) (t : Fin 4096) (d : Fin 4096) :
    Host.dotGeneral dot_S4096x16384_S16384x4096_S4096x4096_1_0_0_1_n_n none a w (ix2 t d)
      = ∑ j : Fin 16384, a (ix2 t j) * w (ix2 j d) :=
  dotGeneral_plain_apply dot_S4096x16384_S16384x4096_S4096x4096_1_0_0_1_n_n none .single rfl rfl
    (fun i k => by
      unfold DotDims.lhsIdx
      rw [dif_neg (show ¬(0 : Fin S4096x16384.rank) ∈ dot_S4096x16384_S16384x4096_S4096x4096_1_0_0_1_n_n.lhsBatch by decide),
        dif_pos (show (0 : Fin S4096x16384.rank) ∈ dot_S4096x16384_S16384x4096_S4096x4096_1_0_0_1_n_n.lhsNonContracting by decide)]
      rfl)
    (fun i k => dot_S4096x16384_S16384x4096_S4096x4096_1_0_0_1_n_n.lhsIdx_val_of_single rfl i k)
    (fun i k => dot_S4096x16384_S16384x4096_S4096x4096_1_0_0_1_n_n.rhsIdx_val_of_single rfl i k)
    (fun i k => by
      unfold DotDims.rhsIdx
      rw [dif_neg (show ¬(1 : Fin S16384x4096.rank) ∈ dot_S4096x16384_S16384x4096_S4096x4096_1_0_0_1_n_n.rhsBatch by decide),
        dif_pos (show (1 : Fin S16384x4096.rank) ∈ dot_S4096x16384_S16384x4096_S4096x4096_1_0_0_1_n_n.rhsNonContracting by decide)]
      rfl)
    a w t d

/-! ## The stages at an index -/

/-- The pre-activation at `(t, j)`: the first product's sum plus the first bias at `j`. -/
theorem preActivation_apply (x : FVec Ideal S2x2048x4096 .f32) (W1 : FVec Ideal S4096x16384 .f32) (b1 : FVec Ideal S16384 .f32)
    (t : Fin 4096) (j : Fin 16384) :
    preActivation x W1 b1 (ix2 t j)
      = (∑ i : Fin 4096, shapeCast S4096x4096 x shapeCasts_S2x2048x4096_S4096x4096 (ix2 t i) * W1 (ix2 i j)) + b1 (ix1 j) := by
  unfold preActivation
  rw [addf_apply]
  refine congrArg₂ (· + ·) ?_ ?_
  · exact firstProduct_apply _ W1 t j
  · exact (broadcastInDim_1b_ab_apply bcast_S1x16384_S4096x16384_0_1 _ t j).trans
      (broadcastInDim_b_1b_apply bcast_S16384_S1x16384_1 b1 (0 : Fin 1) j)

/-- A constant spread over the hidden layer reads the extended real its word encodes. -/
theorem hiddenSplat_apply (w : BitVec 32) (i : S4096x16384.Idx) : hiddenSplat w i = Ideal.ofBits .f32 w := by
  unfold hiddenSplat
  rw [broadcastInDim_scalar_apply]
  rfl

/-- The host's hyperbolic tangent at an entry is the extended reals' one of that entry. -/
theorem hostTanh_apply (v : FVec Ideal S4096x16384 .f32) (i : S4096x16384.Idx) : Host.tanh v i = Ideal.tanh (v i) := rfl

/-- The activation at an entry is the scalar GELU of that entry. -/
theorem activation_apply (v : FVec Ideal S4096x16384 .f32) (i : S4096x16384.Idx) :
    activation v i = Cert.Ffn.gelu (v i) := by
  unfold activation Cert.Ffn.gelu
  simp only [mulf_apply, addf_apply, hostTanh_apply, hiddenSplat_apply]
  rw [mul_comm (v i * v i) (v i)]

/-- A constant spread over the flat output reads the extended real its word encodes. -/
theorem outSplat_apply (w : BitVec 32) (i : S4096x4096.Idx) : outSplat w i = Ideal.ofBits .f32 w := by
  unfold outSplat
  rw [broadcastInDim_scalar_apply]
  rfl

/-- One guarded select at an entry is the specification's scalar one. -/
theorem zeroWhere_apply (p : CmpFPredicate) (w y : FVec Ideal S4096x4096 .f32) (i : S4096x4096.Idx) :
    zeroWhere p w y i = Cert.Ffn.zeroIf p (w i) (y i) := by
  unfold zeroWhere Cert.Ffn.zeroIf
  rw [select_apply, cmpf_apply, outSplat_apply]
  rfl

/-- The three guarded selects at an entry are the specification's guard of that entry: the comparison "differs
    from itself" is the same arm of the extended reals' comparison under either of its two spellings. -/
theorem guarded_apply (y : FVec Ideal S4096x4096 .f32) (i : S4096x4096.Idx) : guarded y i = Cert.Ffn.guard (y i) := by
  unfold guarded Cert.Ffn.guard
  rw [zeroWhere_apply, outSplat_apply, zeroWhere_apply, outSplat_apply, zeroWhere_apply]
  rfl

/-! ## The whole term -/

/-- The reference's composed term is the specification `G` of the five arguments. -/
theorem result_eq_G (x : FVec Ideal S2x2048x4096 .f32) (W1 : FVec Ideal S4096x16384 .f32) (b1 : FVec Ideal S16384 .f32)
    (W2 : FVec Ideal S16384x4096 .f32) (b2 : FVec Ideal S4096 .f32) :
    result x W1 b1 W2 b2 = Cert.Ffn.G x W1 b1 W2 b2 shapeCasts_S2x2048x4096_S4096x4096 := by
  funext i
  obtain ⟨b, s, d, rfl⟩ : ∃ (b : Fin 2) (s : Fin 2048) (d : Fin 4096), i = ix3 b s d := ⟨i 0, i 1, i 2, eq_ix3 i⟩
  unfold result Cert.Ffn.G Cert.Ffn.flat
  rw [addf_apply]
  refine congrArg₂ (· + ·) ?_ ?_
  · refine (unflatten_apply _ shapeCasts_S4096x4096_S2x2048x4096 b s d (Cert.Ffn.rowOf (ix3 b s d)) (Cert.Ffn.rowOf_ix3 b s d)).trans ?_
    refine (guarded_apply _ _).trans (congrArg Cert.Ffn.guard ?_)
    refine (secondProduct_apply _ W2 _ d).trans ?_
    unfold Cert.Ffn.proj Cert.Ffn.hidden
    refine Finset.sum_congr rfl fun j _ => congrArg (· * W2 (ix2 j d)) ?_
    exact (activation_apply _ _).trans (congrArg Cert.Ffn.gelu (preActivation_apply x W1 b1 _ j))
  · exact (broadcastInDim_11c_abc_apply bcast_S1x1x4096_S2x2048x4096_0_1_2 _ b s d).trans
      (broadcastInDim_c_11c_apply bcast_S4096_S1x1x4096_2 b2 (0 : Fin 1) (0 : Fin 1) d)

end Cert.ReferenceIdeal.RefRead

end
-- ==== Proof.RefValue.lean ====
/-
  The reference program's run, stated over the specification.

  Every weakly fair execution of the reference terminates with the result buffer at the specification `G` of
  the five arguments' launch contents, and with the arguments unchanged: the run read back as the operations'
  composed term, and that term equal to `G` entry by entry.
-/
import proofs.«127796_j23699629539600_1_alg».proof.Proof.RefRun
import proofs.«127796_j23699629539600_1_alg».proof.Proof.RefRead

noncomputable section

namespace Cert.ReferenceIdeal.RefValue

open Idealize.ShloMosaic Idealize.SL.Sem Cert.ReferenceIdeal

/-- On every device, from any memory with zero counters: every weakly fair execution of the reference terminates with
    the result at `G` of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23)
        = Cert.Ffn.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) Facts₀.shapeCasts_S2x2048x4096_S4096x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (RefRead.result_eq_G _ _ _ _ _), (h c).2⟩) (RefRun.run m ρ)

end Cert.ReferenceIdeal.RefValue

end
-- ==== Proof.lean ====
/-
  A feed-forward block — a product with `W1`, a bias, the tanh form of GELU, a product with `W2`, a guard against
  infinite values, a second bias — computed two ways: by one kernel that walks the 16384 hidden units in 64 tiles of 256
  and keeps a running sum per block of 512 rows, and by plain array operations over the whole arrays.

  On the extended reals both are one function of the five argument arrays (`Cert.Ffn.G`): a change of float format
  is the identity, each product is a row-times-column sum, and the kernel's running sum over tiles is the sum over all
  hidden units regrouped, which needs only that addition is commutative and associative.  The guard compares a value
  with itself and with the two infinities; both programs apply the same three selections.  Nothing here needs the
  inputs to be finite, so the precondition is never opened.

  The kernel's run and the frames of the two kernel programs are the generated frame certificates; the kernel's value
  is read off its run (the running sum by induction over the grid points), the reference's run and value are read
  off its operations one at a time; the ideal pass rewrote nothing, so the idealized kernel is the kernel's own text.
-/
import proofs.«127796_j23699629539600_1_alg».proof.Defs
import proofs.«127796_j23699629539600_1_alg».proof.Proof.Gen.Kernel
import proofs.«127796_j23699629539600_1_alg».proof.Proof.Gen.Kernel.Skeleton
import proofs.«127796_j23699629539600_1_alg».proof.Proof.Gen.Kernel.Launch
import proofs.«127796_j23699629539600_1_alg».proof.Proof.Gen.Kernel.Points
import proofs.«127796_j23699629539600_1_alg».proof.Proof.Gen.Kernel.Frame
import proofs.«127796_j23699629539600_1_alg».proof.Proof.Gen.KernelIdeal
import proofs.«127796_j23699629539600_1_alg».proof.Proof.Gen.KernelIdeal.Skeleton
import proofs.«127796_j23699629539600_1_alg».proof.Proof.Gen.KernelIdeal.Launch
import proofs.«127796_j23699629539600_1_alg».proof.Proof.Gen.KernelIdeal.Points
import proofs.«127796_j23699629539600_1_alg».proof.Proof.Gen.KernelIdeal.Frame
import proofs.«127796_j23699629539600_1_alg».proof.Proof.Gen.ReferenceIdeal
import proofs.«127796_j23699629539600_1_alg».proof.Proof.Gen.Pre_finite_inputs
import proofs.«127796_j23699629539600_1_alg».proof.Proof.KernFinal
import proofs.«127796_j23699629539600_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.RefValue.run m ρ)

/-- No operation of the kernel was rewritten for the reading on the extended reals. -/
theorem preserves : Cert.preserves_Kernel_KernelIdeal := trivial

/-- From memories that agree on the five arguments both programs end with the same result: each run ends at the
    one function `Cert.Ffn.G` of its own arguments, and the arguments agree. -/
theorem algebraic : Cert.algebraic_KernelIdeal_ReferenceIdeal := by
  intro m ρ m' ρ' _ hagree
  refine ⟨_, Cert.KernelIdeal.KernValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
